-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x768 : Shape := ⟨2, ![20000, 768]⟩
abbrev S2x1600000 : Shape := ⟨2, ![2, 1600000]⟩
abbrev S768x128 : Shape := ⟨2, ![768, 128]⟩
abbrev S128 : Shape := ⟨1, ![128]⟩
abbrev S80000x128 : Shape := ⟨2, ![80000, 128]⟩
abbrev S128x128 : Shape := ⟨2, ![128, 128]⟩
abbrev S_ : Shape := ⟨0, ![]⟩

class Facts : Prop where
  bcast_S_S20000x768 : S_.BroadcastsInDim S20000x768 (![] : Fin 0 → Fin S20000x768.rank)
  reducesTo_S20000x768_S_d0_1 : S20000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S80000x128 : S_.BroadcastsInDim S80000x128 (![] : Fin 0 → Fin S80000x128.rank)
  reducesTo_S80000x128_S_d0_1 : S80000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S80000x128 1) : IVec S_ 1 :=
  let main_c_5 : IVec S_ 1 := constantI S_ 1 1#1
  let main_v17 : IVec S_ 1 := (fun x v => Host.reduce IntOp.andi x v reducesTo_S80000x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S20000x768 .f32) (main_arg1 : IVec S2x1600000 32) (main_arg2 : FVec F S768x128 .f32) (main_arg3 : FVec F S128 .f32) (main_arg4 : FVec F S80000x128 .f32) (main_arg5 : FVec F S128x128 .f32) (main_arg6 : FVec F S128 .f32) (main_arg7 : FVec F S128x128 .f32) (main_arg8 : FVec F S128 .f32) : IVec S_ 1 :=
  let main_v0 : FVec F S20000x768 .f32 := Host.absf main_arg0
  let main_cst : FVec F S_ .f32 := constant S_ .f32 0x7F800000#32
  let main_v1 : FVec F S20000x768 .f32 := broadcastInDim S20000x768 ![] bcast_S_S20000x768 main_cst
  let main_v2 : IVec S20000x768 1 := cmpf .olt main_v0 main_v1
  let main_c : IVec S_ 1 := constantI S_ 1 1#1
  let main_v3 : IVec S_ 1 := (fun x v => Host.reduce IntOp.andi x v reducesTo_S20000x768_S_d0_1 h_S_) main_v2 main_c
  let main_v4 : FVec F S768x128 .f32 := Host.absf main_arg2
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S80000x128 .f32 := Host.absf main_arg4
  let main_cst_4 : FVec F S_ .f32 := constant S_ .f32 0x7F800000#32
  let main_v15 : FVec F S80000x128 .f32 := broadcastInDim S80000x128 ![] bcast_S_S80000x128 main_cst_4
  let main_v16 : IVec S80000x128 1 := cmpf .olt main_v14 main_v15
  fn_part1 (F := F) main_arg5 main_arg6 main_arg7 main_arg8 main_v13 main_v16
-- ==== Kernel.lean ====
abbrev S20000x768 : Shape := ⟨2, ![20000, 768]⟩
abbrev S2x1600000 : Shape := ⟨2, ![2, 1600000]⟩
abbrev S768x128 : Shape := ⟨2, ![768, 128]⟩
abbrev S128 : Shape := ⟨1, ![128]⟩
abbrev S80000x128 : Shape := ⟨2, ![80000, 128]⟩
abbrev S128x128 : Shape := ⟨2, ![128, 128]⟩
abbrev S1x128 : Shape := ⟨2, ![1, 128]⟩
abbrev S20000x128 : Shape := ⟨2, ![20000, 128]⟩
abbrev S2000x768 : Shape := ⟨2, ![2000, 768]⟩
abbrev S2000x128 : Shape := ⟨2, ![2000, 128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩

abbrev nBuf : Space → Nat
  | .hbm => 90
  | .vmem => 26
  | .smem => 0
  | _ => 0

abbrev bufTy : (tb : Table) → Fin (tcTables nBuf tb) → BufTy
  | .hbm, ⟨0, _⟩ => ⟨S20000x768, .f32⟩
  | .hbm, ⟨1, _⟩ => ⟨S2x1600000, .i32⟩
  | .hbm, ⟨2, _⟩ => ⟨S768x128, .f32⟩
  | .hbm, ⟨3, _⟩ => ⟨S128, .f32⟩
  | .hbm, ⟨4, _⟩ => ⟨S80000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S20000x128, .f32⟩
  | .hbm, ⟨11, _⟩ => ⟨S100000x128, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | _, _ => ⟨S20000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S128_S1x128 : S128.ShapeCasts S1x128
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  concatenates_S20000x128_S80000x128_S100000x128_d0 : Shape.Concatenates [S20000x128, S80000x128] S100000x128 0
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  broadcasts_S1x128_S10000x128 : S1x128.Broadcasts S10000x128
  dot_S2000x768_S768x128_S2000x128_1_0_0_1_n_n_wf : DotDims.WF S2000x768 S768x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S20000x768.size a
  hwx0_0 : ∀ i : grid0.Coords, EltTy.bits .f32 = 32 ∨ (Rect.block (s := S20000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)

variable [Facts₀]

def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S20000x768 : Shape := ⟨2, ![20000, 768]⟩
abbrev S2x1600000 : Shape := ⟨2, ![2, 1600000]⟩
abbrev S768x128 : Shape := ⟨2, ![768, 128]⟩
abbrev S128 : Shape := ⟨1, ![128]⟩
abbrev S80000x128 : Shape := ⟨2, ![80000, 128]⟩
abbrev S128x128 : Shape := ⟨2, ![128, 128]⟩
abbrev S20000x128 : Shape := ⟨2, ![20000, 128]⟩
abbrev S1x128 : Shape := ⟨2, ![1, 128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 97
  | .vmem => 0
  | .smem => 0
  | _ => 0

abbrev bufTy : (tb : Table) → Fin (tcTables nBuf tb) → BufTy
  | .hbm, ⟨0, _⟩ => ⟨S20000x768, .f32⟩
  | .hbm, ⟨1, _⟩ => ⟨S2x1600000, .i32⟩
  | .hbm, ⟨2, _⟩ => ⟨S768x128, .f32⟩
  | .hbm, ⟨3, _⟩ => ⟨S128, .f32⟩
  | .hbm, ⟨4, _⟩ => ⟨S80000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S20000x128, .f32⟩
  | .hbm, ⟨10, _⟩ => ⟨S1x128, .f32⟩
  | .hbm, ⟨11, _⟩ => ⟨S20000x128, .f32⟩
  | .hbm, ⟨12, _⟩ => ⟨S20000x128, .f32⟩
  | .hbm, ⟨13, _⟩ => ⟨S100000x128, .f32⟩
  | .hbm, ⟨14, _⟩ => ⟨S100000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S1x1600000, .i32⟩
  | .hbm, ⟨19, _⟩ => ⟨S1600000, .i32⟩
  | .hbm, ⟨20, _⟩ => ⟨S1700000, .i32⟩
  | .hbm, ⟨21, _⟩ => ⟨S_, .f32⟩
  | .hbm, ⟨22, _⟩ => ⟨S1700000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x1, .f32⟩
  | .hbm, ⟨88, _⟩ => ⟨S1700000x128, .f32⟩
  | .hbm, ⟨89, _⟩ => ⟨S1700000x128, .f32⟩
  | .hbm, ⟨90, _⟩ => ⟨S_, .f32⟩
  | .hbm, ⟨91, _⟩ => ⟨S100000x128, .f32⟩
  | .hbm, ⟨92, _⟩ => ⟨S1700000x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | _, _ => ⟨S20000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_cst : Ref sig .tc := ⟨.hbm, 74, rfl⟩
abbrev main_call1_v0 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  concatenates_S20000x128_S80000x128_S100000x128_d0 : Shape.Concatenates [S20000x128, S80000x128] S100000x128 0
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  dot_S20000x768_S768x128_S20000x128_1_0_0_1_n_n_wf : DotDims.WF S20000x768 S768x128 S20000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S20000x768_S768x128_S20000x128_1_0_0_1_n_n : DotDims S20000x768 S768x128 S20000x128 where
  lhsContracting := [1]
  rhsContracting := [0]
  lhsNonContracting := [0]
  rhsNonContracting := [1]
  lhsBatch := []
  rhsBatch := []
  wf := dot_S20000x768_S768x128_S20000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The kernel's run with its result named.

  The kernel's host program is eleven segments: stretches of host operations and five pipelined regions. Running them in
  order from the launch memory leaves every unscoped buffer at the last boundary's contents: the fold that takes, at
  each stretch, the operations' results and, at each region, the region's arrays as its write-backs leave them. So every
  weakly fair execution terminates, without a fault, with the result buffer at that last boundary's contents there, and
  the argument arrays, which nothing writes, as launched.
-/
import proofs.«143427_j20667382628838_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting; the result buffer ends at the
    last boundary's contents (the last region's output array as its write-backs leave it) and the arguments as launched. -/
theorem run_value : θ_run defs (onTc (τ := τ) (main (F := F))) ⟨m, fun _ => 0, ρ⟩ (fun r => ∀ c : Dev nD,
      r.2.mem ((c.tc : Thread nD τ).loc main_v64) = W11 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v64 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.RunValue

end
-- ==== Proof.Kept.lean ====
/-
  What the kernel's program leaves alone between the place a value is made and the place it is read.

  The program's eleven segments each write a few buffers: a stretch of host operations writes its operations' results, a
  region writes its output array. The arguments are written by none; the edge lists and the edge weights are made once,
  before the first layer, and read again after each layer's product. So each of these buffers holds, at the boundary
  where it is read, what it held where it was made (for an argument: at launch): one step back per segment.
-/
import proofs.«143427_j20667382628838_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem at1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0)).trans rfl

theorem at1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg1) = W0 m ρ c (Proc.devRef .tc main_arg1)).trans rfl

theorem at1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg2) = W0 m ρ c (Proc.devRef .tc main_arg2)).trans rfl

theorem at1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg4) = W0 m ρ c (Proc.devRef .tc main_arg4)).trans rfl

theorem at1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg5) = W0 m ρ c (Proc.devRef .tc main_arg5)).trans rfl

theorem at1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg6) = W0 m ρ c (Proc.devRef .tc main_arg6)).trans rfl

theorem at1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg7) = W0 m ρ c (Proc.devRef .tc main_arg7)).trans rfl

theorem at1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg8) = W0 m ρ c (Proc.devRef .tc main_arg8)).trans rfl

theorem at2_main_arg1 (c : Dev nD) : W2 m ρ c (Proc.devRef .tc main_arg1) = m ((c : Thread nD τ).loc main_arg1) :=
  (W2_of_ne m ρ c main_arg1 (by decide)).trans (at1_main_arg1 m ρ c)

theorem at2_main_arg4 (c : Dev nD) : W2 m ρ c (Proc.devRef .tc main_arg4) = m ((c : Thread nD τ).loc main_arg4) :=
  (W2_of_ne m ρ c main_arg4 (by decide)).trans (at1_main_arg4 m ρ c)

theorem at2_main_arg5 (c : Dev nD) : W2 m ρ c (Proc.devRef .tc main_arg5) = m ((c : Thread nD τ).loc main_arg5) :=
  (W2_of_ne m ρ c main_arg5 (by decide)).trans (at1_main_arg5 m ρ c)

theorem at2_main_arg6 (c : Dev nD) : W2 m ρ c (Proc.devRef .tc main_arg6) = m ((c : Thread nD τ).loc main_arg6) :=
  (W2_of_ne m ρ c main_arg6 (by decide)).trans (at1_main_arg6 m ρ c)

theorem at2_main_arg7 (c : Dev nD) : W2 m ρ c (Proc.devRef .tc main_arg7) = m ((c : Thread nD τ).loc main_arg7) :=
  (W2_of_ne m ρ c main_arg7 (by decide)).trans (at1_main_arg7 m ρ c)

theorem at2_main_arg8 (c : Dev nD) : W2 m ρ c (Proc.devRef .tc main_arg8) = m ((c : Thread nD τ).loc main_arg8) :=
  (W2_of_ne m ρ c main_arg8 (by decide)).trans (at1_main_arg8 m ρ c)

theorem at5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg5) := StableHlo.after_of_forall_not_mem (b := Proc.devRef .tc main_arg5) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := at2_main_arg5 m ρ c

theorem at5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg6) := StableHlo.after_of_forall_not_mem (b := Proc.devRef .tc main_arg6) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := at2_main_arg6 m ρ c

theorem at5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg7) := StableHlo.after_of_forall_not_mem (b := Proc.devRef .tc main_arg7) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg7) := StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := at2_main_arg7 m ρ c

theorem at5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg8) := StableHlo.after_of_forall_not_mem (b := Proc.devRef .tc main_arg8) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := at2_main_arg8 m ρ c

theorem at6_main_arg6 (c : Dev nD) : W6 m ρ c (Proc.devRef .tc main_arg6) = m ((c : Thread nD τ).loc main_arg6) :=
  (W6_of_ne m ρ c main_arg6 (by decide)).trans (at5_main_arg6 m ρ c)

theorem at6_main_arg7 (c : Dev nD) : W6 m ρ c (Proc.devRef .tc main_arg7) = m ((c : Thread nD τ).loc main_arg7) :=
  (W6_of_ne m ρ c main_arg7 (by decide)).trans (at5_main_arg7 m ρ c)

theorem at6_main_arg8 (c : Dev nD) : W6 m ρ c (Proc.devRef .tc main_arg8) = m ((c : Thread nD τ).loc main_arg8) :=
  (W6_of_ne m ρ c main_arg8 (by decide)).trans (at5_main_arg8 m ρ c)

theorem at6_main_v6 (c : Dev nD) : W6 m ρ c (Proc.devRef .tc main_v6) = W5 m ρ c (Proc.devRef .tc main_v6) := W6_of_ne m ρ c main_v6 (by decide)

theorem at6_main_v9 (c : Dev nD) : W6 m ρ c (Proc.devRef .tc main_v9) = W5 m ρ c (Proc.devRef .tc main_v9) := W6_of_ne m ρ c main_v9 (by decide)

theorem at6_main_v32 (c : Dev nD) : W6 m ρ c (Proc.devRef .tc main_v32) = W5 m ρ c (Proc.devRef .tc main_v32) := W6_of_ne m ρ c main_v32 (by decide)

theorem at7_main_arg7 (c : Dev nD) : W7 m ρ c (Proc.devRef .tc main_arg7) = m ((c : Thread nD τ).loc main_arg7) :=
  (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W7 m ρ c (Proc.devRef .tc main_arg7) = W6 m ρ c (Proc.devRef .tc main_arg7)).trans (at6_main_arg7 m ρ c)

theorem at8_main_arg7 (c : Dev nD) : W8 m ρ c (Proc.devRef .tc main_arg7) = m ((c : Thread nD τ).loc main_arg7) :=
  (W8_of_ne m ρ c main_arg7 (by decide)).trans (at7_main_arg7 m ρ c)

theorem at7_main_arg8 (c : Dev nD) : W7 m ρ c (Proc.devRef .tc main_arg8) = m ((c : Thread nD τ).loc main_arg8) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W7 m ρ c (Proc.devRef .tc main_arg8) = W6 m ρ c (Proc.devRef .tc main_arg8)).trans (at6_main_arg8 m ρ c)

theorem at8_main_arg8 (c : Dev nD) : W8 m ρ c (Proc.devRef .tc main_arg8) = m ((c : Thread nD τ).loc main_arg8) :=
  (W8_of_ne m ρ c main_arg8 (by decide)).trans (at7_main_arg8 m ρ c)

theorem at9_main_arg8 (c : Dev nD) : W9 m ρ c (Proc.devRef .tc main_arg8) = m ((c : Thread nD τ).loc main_arg8) :=
  (W9_of_ne m ρ c main_arg8 (by decide)).trans (at8_main_arg8 m ρ c)

theorem at9_main_v6 (c : Dev nD) : W9 m ρ c (Proc.devRef .tc main_v6) = W5 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v6) := at6_main_v6 m ρ c

theorem at9_main_v9 (c : Dev nD) : W9 m ρ c (Proc.devRef .tc main_v9) = W5 m ρ c (Proc.devRef .tc main_v9) :=
  calc W9 m ρ c (Proc.devRef .tc main_v9)
    _ = W8 m ρ c (Proc.devRef .tc main_v9) := W9_of_ne m ρ c main_v9 (by decide)
    _ = W7 m ρ c (Proc.devRef .tc main_v9) := W8_of_ne m ρ c main_v9 (by decide)
    _ = W6 m ρ c (Proc.devRef .tc main_v9) := StableHlo.after_of_forall_not_mem (b := Proc.devRef .tc main_v9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v9) := at6_main_v9 m ρ c

theorem at9_main_v32 (c : Dev nD) : W9 m ρ c (Proc.devRef .tc main_v32) = W5 m ρ c (Proc.devRef .tc main_v32) :=
  calc W9 m ρ c (Proc.devRef .tc main_v32)
    _ = W8 m ρ c (Proc.devRef .tc main_v32) := W9_of_ne m ρ c main_v32 (by decide)
    _ = W7 m ρ c (Proc.devRef .tc main_v32) := W8_of_ne m ρ c main_v32 (by decide)
    _ = W6 m ρ c (Proc.devRef .tc main_v32) := StableHlo.after_of_forall_not_mem (b := Proc.devRef .tc main_v32) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v32) := at6_main_v32 m ρ c

end Cert.KernelIdeal.Kept

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibNodeRows.lean ====
/-
  The dense pieces of a graph-convolution layer, as functions of whole arrays over the extended reals.

  Four maps of an `[M, ·]` array of node rows, each acting on every row alone:

    * `project x w r`     — `x · w` with the row `r : [1, N]` added to every row of the product;
    * `lin x w`           — the matrix product `x · w`: at `(p, q)` the sum over `k` of `x (p, k) * w (k, q)`;
    * `addRow x r`        — the row `r` added to every row of `x`;
    * `addRowRelu x r`    — the same followed by the maximum with zero.

  Row `p` of each result depends on row `p` of `x` only. Hence a computation that cuts `x` into blocks of consecutive
  rows and applies the map block by block produces exactly the blocks of the map applied to all of `x`: no sum is
  reordered, and nothing here needs an entry to be finite.

  The second half states the host's spellings of the same maps (a `dot_general` with the plain dimension numbers, a
  row spread over the rows by `broadcast_in_dim`, `add`, `maximum` against a spread zero) as these functions.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«143427_j20667382628838_1_alg».proof.Proof.LibPlainDot
import proofs.«143427_j20667382628838_1_alg».proof.Proof.LibRegionBlockSpread

noncomputable section

namespace Idealize.ShloMosaic.NodeRows

open Idealize.ShloMosaic Idealize.ShloMosaic.ValueIdx

/-- The float word zero, read at the ideal instance. It is the same word wherever it occurs and is never evaluated. -/
abbrev zeroWord : EReal := Ideal.ofBits .f32 0x00000000#32

variable {M K N : ℕ}

/-- `x · w + r`, the row `r` added to every row of the product. -/
def project (x : FVec Ideal ⟨2, ![M, K]⟩ .f32) (w : FVec Ideal ⟨2, ![K, N]⟩ .f32) (r : FVec Ideal ⟨2, ![1, N]⟩ .f32) :
    FVec Ideal ⟨2, ![M, N]⟩ .f32 :=
  fun i => ∑ k : Fin K, x (ix2 (i 0) k) * w (ix2 k (i 1)) + r (ix2 (0 : Fin 1) (i 1))

/-- The matrix product `x · w`. -/
def lin (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

/-- The row `r` added to every row of `x`. -/
def addRow (x : FVec Ideal ⟨2, ![M, N]⟩ .f32) (r : FVec Ideal ⟨2, ![1, N]⟩ .f32) : FVec Ideal ⟨2, ![M, N]⟩ .f32 :=
  fun i => x i + r (ix2 (0 : Fin 1) (i 1))

/-- The row `r` added to every row of `x`, then the maximum with zero. -/
def addRowRelu (x : FVec Ideal ⟨2, ![M, N]⟩ .f32) (r : FVec Ideal ⟨2, ![1, N]⟩ .f32) : FVec Ideal ⟨2, ![M, N]⟩ .f32 :=
  fun i => max (x i + r (ix2 (0 : Fin 1) (i 1))) zeroWord

/-! ## A block of consecutive rows -/

/-- Rows `e p` of `x` (any choice `e` of rows), with all of `w` and `r`, give rows `e p` of `project x w r`. -/
theorem project_rows {T : ℕ} (x : FVec Ideal ⟨2, ![M, K]⟩ .f32) (w : FVec Ideal ⟨2, ![K, N]⟩ .f32) (r : FVec Ideal ⟨2, ![1, N]⟩ .f32)
    (x0 : FVec Ideal ⟨2, ![T, K]⟩ .f32) (x1 : FVec Ideal ⟨2, ![K, N]⟩ .f32) (x2 : FVec Ideal ⟨2, ![1, N]⟩ .f32) (e : Fin T → Fin M)
    (h0 : ∀ p k, x0 (ix2 p k) = x (ix2 (e p) k)) (h1 : ∀ k q, x1 (ix2 k q) = w (ix2 k q))
    (h2 : ∀ q, x2 (ix2 (0 : Fin 1) q) = r (ix2 (0 : Fin 1) q)) (p : Fin T) (q : Fin N) :
    ∑ k : Fin K, x0 (ix2 p k) * x1 (ix2 k q) + x2 (ix2 (0 : Fin 1) q) = project x w r (ix2 (e p) q) := by
  show _ = ∑ k : Fin K, x (ix2 (e p) k) * w (ix2 k q) + r (ix2 (0 : Fin 1) q)
  rw [h2 q]
  exact congrArg (· + r (ix2 (0 : Fin 1) q)) (Finset.sum_congr rfl fun k _ => by rw [h0 p k, h1 k q])

/-- Rows `e p` of `x`, with all of `w`, give rows `e p` of `lin x w`. -/
theorem lin_rows {T : ℕ} (x : FVec Ideal ⟨2, ![M, K]⟩ .f32) (w : FVec Ideal ⟨2, ![K, N]⟩ .f32)
    (x0 : FVec Ideal ⟨2, ![T, K]⟩ .f32) (x1 : FVec Ideal ⟨2, ![K, N]⟩ .f32) (e : Fin T → Fin M)
    (h0 : ∀ p k, x0 (ix2 p k) = x (ix2 (e p) k)) (h1 : ∀ k q, x1 (ix2 k q) = w (ix2 k q)) (p : Fin T) (q : Fin N) :
    ∑ k : Fin K, x0 (ix2 p k) * x1 (ix2 k q) = lin x w (ix2 (e p) q) := by
  show _ = ∑ k : Fin K, x (ix2 (e p) k) * w (ix2 k q)
  exact Finset.sum_congr rfl fun k _ => by rw [h0 p k, h1 k q]

/-- Rows `e p` of `x`, with the row `r`, give rows `e p` of `addRow x r`. -/
theorem addRow_rows {T : ℕ} (x : FVec Ideal ⟨2, ![M, N]⟩ .f32) (r : FVec Ideal ⟨2, ![1, N]⟩ .f32)
    (x0 : FVec Ideal ⟨2, ![T, N]⟩ .f32) (x1 : FVec Ideal ⟨2, ![1, N]⟩ .f32) (e : Fin T → Fin M)
    (h0 : ∀ p q, x0 (ix2 p q) = x (ix2 (e p) q)) (h1 : ∀ q, x1 (ix2 (0 : Fin 1) q) = r (ix2 (0 : Fin 1) q)) (p : Fin T) (q : Fin N) :
    x0 (ix2 p q) + x1 (ix2 (0 : Fin 1) q) = addRow x r (ix2 (e p) q) := by
  show _ = x (ix2 (e p) q) + r (ix2 (0 : Fin 1) q)
  rw [h0 p q, h1 q]

/-- Rows `e p` of `x`, with the row `r`, give rows `e p` of `addRowRelu x r`. -/
theorem addRowRelu_rows {T : ℕ} (x : FVec Ideal ⟨2, ![M, N]⟩ .f32) (r : FVec Ideal ⟨2, ![1, N]⟩ .f32)
    (x0 : FVec Ideal ⟨2, ![T, N]⟩ .f32) (x1 : FVec Ideal ⟨2, ![1, N]⟩ .f32) (e : Fin T → Fin M)
    (h0 : ∀ p q, x0 (ix2 p q) = x (ix2 (e p) q)) (h1 : ∀ q, x1 (ix2 (0 : Fin 1) q) = r (ix2 (0 : Fin 1) q)) (p : Fin T) (q : Fin N) :
    max (x0 (ix2 p q) + x1 (ix2 (0 : Fin 1) q)) zeroWord = addRowRelu x r (ix2 (e p) q) := by
  show _ = max (x (ix2 (e p) q) + r (ix2 (0 : Fin 1) q)) zeroWord
  rw [h0 p q, h1 q]

/-! ## The host's spellings -/

/-- A host `dot_general` with the plain dimension numbers is `lin`. -/
theorem dotGeneral_eq_lin (d : DotDims ⟨2, ![M, K]⟩ ⟨2, ![K, N]⟩ ⟨2, ![M, N]⟩) (hd : d = DotDims.plain M K N)
    (prec : Option ContractPrecision) (sched : HostSchedule)
    (x : FVec Ideal ⟨2, ![M, K]⟩ .f32) (w : FVec Ideal ⟨2, ![K, N]⟩ .f32) :
    FloatOps.dotGeneral d prec sched x w = lin x w := by
  funext j
  obtain ⟨p, q, rfl⟩ : ∃ (p : Fin M) (q : Fin N), j = ix2 p q := ⟨j 0, j 1, eq_ix2 j⟩
  exact PlainDot.dotGeneral_apply d hd prec sched x w p q

/-- The host's `x + (r spread over the rows)` is `addRow`. -/
theorem addf_spread_eq_addRow (x : FVec Ideal ⟨2, ![M, N]⟩ .f32) (r : FVec Ideal ⟨2, ![1, N]⟩ .f32)
    (h : (⟨2, ![1, N]⟩ : Shape).BroadcastsInDim ⟨2, ![M, N]⟩ ![0, 1]) :
    addf x (broadcastInDim ⟨2, ![M, N]⟩ ![0, 1] h r) = addRow x r := by
  funext j
  obtain ⟨p, q, rfl⟩ : ∃ (p : Fin M) (q : Fin N), j = ix2 p q := ⟨j 0, j 1, eq_ix2 j⟩
  show x (ix2 p q) + broadcastInDim ⟨2, ![M, N]⟩ ![0, 1] h r (ix2 p q) = x (ix2 p q) + r (ix2 (0 : Fin 1) q)
  rw [KeepDims.broadcastInDim_1b_ab_apply]

/-- The host's `x · w + (r spread over the rows)` is `project`. -/
theorem dotGeneral_addf_spread_eq_project (d : DotDims ⟨2, ![M, K]⟩ ⟨2, ![K, N]⟩ ⟨2, ![M, N]⟩) (hd : d = DotDims.plain M K N)
    (prec : Option ContractPrecision) (sched : HostSchedule)
    (x : FVec Ideal ⟨2, ![M, K]⟩ .f32) (w : FVec Ideal ⟨2, ![K, N]⟩ .f32) (r : FVec Ideal ⟨2, ![1, N]⟩ .f32)
    (h : (⟨2, ![1, N]⟩ : Shape).BroadcastsInDim ⟨2, ![M, N]⟩ ![0, 1]) :
    addf (FloatOps.dotGeneral d prec sched x w) (broadcastInDim ⟨2, ![M, N]⟩ ![0, 1] h r) = project x w r := by
  rw [addf_spread_eq_addRow, dotGeneral_eq_lin d hd]
  rfl

/-- The host's rectifier after a bias: `max (x + (r spread over the rows)) (zero spread everywhere)` is `addRowRelu`. -/
theorem maximumf_addf_spread_eq_addRowRelu (x : FVec Ideal ⟨2, ![M, N]⟩ .f32) (r : FVec Ideal ⟨2, ![1, N]⟩ .f32)
    (h : (⟨2, ![1, N]⟩ : Shape).BroadcastsInDim ⟨2, ![M, N]⟩ ![0, 1])
    (h0 : (⟨0, ![]⟩ : Shape).BroadcastsInDim ⟨2, ![M, N]⟩ ![]) :
    maximumf (addf x (broadcastInDim ⟨2, ![M, N]⟩ ![0, 1] h r))
        (broadcastInDim ⟨2, ![M, N]⟩ ![] h0 (constant (F := Ideal) ⟨0, ![]⟩ .f32 0x00000000#32))
      = addRowRelu x r := by
  rw [addf_spread_eq_addRow]
  funext j
  show max (addRow x r j) (broadcastInDim ⟨2, ![M, N]⟩ ![] h0 (constant (F := Ideal) ⟨0, ![]⟩ .f32 0x00000000#32) j) = max (addRow x r j) zeroWord
  rw [broadcastInDim_apply ![] h0 _ j ix0 (fun a => a.elim0)]
  rfl

end Idealize.ShloMosaic.NodeRows

end
-- ==== Proof.Tiles.lean ====
/-
  What each of the kernel's five bodies stores, entry by entry, at the ideal values.

  Every body loads its whole tiles, computes, and stores one whole tile. A change of float format is the identity on the
  extended reals, a matrix product into the zero accumulator is the plain sum over the contracted coordinate, and a
  `[1, 128]` row broadcast over a tile's rows reads that row at the entry's column. So, for a tile `x` of rows, a weight
  matrix `w` and a row `r`, at the entry `(p, q)`:

    * the projection stores      `∑ k, x (p, k) * w (k, q) + r (0, q)`;
    * the two products store     `∑ k, x (p, k) * w (k, q)`;
    * the bias with rectifier    `max (x (p, q) + r (0, q)) 0`;
    * the last bias              `x (p, q) + r (0, q)`.
-/
import proofs.«143427_j20667382628838_1_alg».proof.Proof.Gen.KernelIdeal
import proofs.«143427_j20667382628838_1_alg».proof.Proof.Gen.KernelIdeal.Skeleton
import Idealize.ShloMosaic.Lib.ValueIdx
import Idealize.ShloMosaic.Lib.ValueLayout
import Idealize.ShloMosaic.Lib.Pipeline.Value
import proofs.«143427_j20667382628838_1_alg».proof.Proof.LibPlainDot
import proofs.«143427_j20667382628838_1_alg».proof.Proof.LibNodeRows

noncomputable section

namespace Cert.KernelIdeal.Tiles

open Cert.KernelIdeal Cert.KernelIdeal.Gen Idealize.ShloMosaic Idealize.ShloMosaic.ValueIdx Idealize.ShloMosaic.NodeRows

/-- The projection's dimension numbers are the plain ones: contract the tile's columns with the weight's rows. -/
theorem dot_project_plain : dot_S2000x768_S768x128_S2000x128_1_0_0_1_n_n = DotDims.plain 2000 768 128 := rfl
/-- So are the two layer products'. -/
theorem dot_lin_plain : dot_S10000x128_S128x128_S10000x128_1_0_0_1_n_n = DotDims.plain 10000 128 128 := rfl

/-- A `[1, 128]` row, cast to its own shape and broadcast over `a` rows, reads at `(p, q)` the row at `q`. -/
theorem row_spread {a : ℕ} (r : FVec Ideal ⟨2, ![1, 128]⟩ .f32) (h1 : (⟨2, ![1, 128]⟩ : Shape).ShapeCasts ⟨2, ![1, 128]⟩)
    (h2 : (⟨2, ![1, 128]⟩ : Shape).Broadcasts ⟨2, ![a, 128]⟩) (p : Fin a) (q : Fin 128) :
    broadcastTo ⟨2, ![a, 128]⟩ (shapeCast ⟨2, ![1, 128]⟩ r h1) h2 (ix2 p q) = r (ix2 (0 : Fin 1) q) := by
  rw [broadcastTo_1b_ab_apply, shapeCast_self]

/-- The projection's stored tile at an entry. -/
theorem project_entry (v0 : Vec Ideal S2000x768 .f32) (v2 : Vec Ideal S768x128 .f32) (v5 : Vec Ideal S1x128 .f32)
    (p : Fin 2000) (q : Fin 128) :
    k0_pay1 v0 v2 v5 (ix2 p q) = ∑ k : Fin 768, v0 (ix2 p k) * v2 (ix2 k q) + v5 (ix2 (0 : Fin 1) q) := by
  have e1 := PlainDot.matmul_zero_apply dot_S2000x768_S768x128_S2000x128_1_0_0_1_n_n dot_project_plain none
    (truncf .bf16 v0 bitsLt_bf16_f32) (truncf .bf16 v2 bitsLt_bf16_f32) p q
  have e2 := row_spread (a := 2000) v5 shapeCasts_S1x128_S1x128 broadcasts_S1x128_S2000x128 p q
  exact congrArg₂ (· + ·) e1 e2

/-- The first layer product's stored tile at an entry. -/
theorem lin1_entry (v0 : Vec Ideal S10000x128 .f32) (v3 : Vec Ideal S128x128 .f32) (p : Fin 10000) (q : Fin 128) :
    k1_pay1 v0 v3 (ix2 p q) = ∑ k : Fin 128, v0 (ix2 p k) * v3 (ix2 k q) := by
  have e1 := PlainDot.matmul_zero_apply dot_S10000x128_S128x128_S10000x128_1_0_0_1_n_n dot_lin_plain none
    (truncf .bf16 (shapeCast S10000x128 v0 shapeCasts_S10000x128_S10000x128) bitsLt_bf16_f32) (truncf .bf16 v3 bitsLt_bf16_f32) p q
  refine e1.trans (Finset.sum_congr rfl fun k _ => ?_)
  show shapeCast S10000x128 v0 shapeCasts_S10000x128_S10000x128 (ix2 p k) * v3 (ix2 k q) = v0 (ix2 p k) * v3 (ix2 k q)
  rw [shapeCast_self]

/-- The second layer product's stored tile at an entry. -/
theorem lin3_entry (v0 : Vec Ideal S10000x128 .f32) (v3 : Vec Ideal S128x128 .f32) (p : Fin 10000) (q : Fin 128) :
    k3_pay1 v0 v3 (ix2 p q) = ∑ k : Fin 128, v0 (ix2 p k) * v3 (ix2 k q) := by
  have e1 := PlainDot.matmul_zero_apply dot_S10000x128_S128x128_S10000x128_1_0_0_1_n_n dot_lin_plain none
    (truncf .bf16 (shapeCast S10000x128 v0 shapeCasts_S10000x128_S10000x128) bitsLt_bf16_f32) (truncf .bf16 v3 bitsLt_bf16_f32) p q
  refine e1.trans (Finset.sum_congr rfl fun k _ => ?_)
  show shapeCast S10000x128 v0 shapeCasts_S10000x128_S10000x128 (ix2 p k) * v3 (ix2 k q) = v0 (ix2 p k) * v3 (ix2 k q)
  rw [shapeCast_self]

/-- The bias with rectifier: its stored tile at an entry. -/
theorem addRowRelu_entry (v0 : Vec Ideal S10000x128 .f32) (v2 : Vec Ideal S1x128 .f32) (p : Fin 10000) (q : Fin 128) :
    k2_pay1 v0 v2 (ix2 p q) = max (v0 (ix2 p q) + v2 (ix2 (0 : Fin 1) q)) zeroWord := by
  have e1 : shapeCast S10000x128 v0 shapeCasts_S10000x128_S10000x128 (ix2 p q) = v0 (ix2 p q) := by rw [shapeCast_self]
  have e2 := row_spread (a := 10000) v2 shapeCasts_S1x128_S1x128 broadcasts_S1x128_S10000x128 p q
  exact congrArg (max · zeroWord) (congrArg₂ (· + ·) e1 e2)

/-- The last bias: its stored tile at an entry. -/
theorem addRow_entry (v0 : Vec Ideal S10000x128 .f32) (v2 : Vec Ideal S1x128 .f32) (p : Fin 10000) (q : Fin 128) :
    k4_pay1 v0 v2 (ix2 p q) = v0 (ix2 p q) + v2 (ix2 (0 : Fin 1) q) := by
  have e1 : shapeCast S10000x128 v0 shapeCasts_S10000x128_S10000x128 (ix2 p q) = v0 (ix2 p q) := by rw [shapeCast_self]
  have e2 := row_spread (a := 10000) v2 shapeCasts_S1x128_S1x128 broadcasts_S1x128_S10000x128 p q
  exact congrArg₂ (· + ·) e1 e2

end Cert.KernelIdeal.Tiles

end
-- ==== Proof.Region0.lean ====
/-
  The projection region: twenty thousand rows, two thousand at a time.

  The region's ten grid points each read rows `2000 t … 2000 t + 1999` of the `[20000, 768]` input, all of the weight
  matrix and all of the bias row, and write rows `2000 t … 2000 t + 1999` of the `[20000, 128]` output with
  `x · w + r` of what they read. Since a row of `x · w + r` depends on the same row of `x` only, each written block is that
  block of the one array `project x w r`; the ten blocks tile the output, so after the region it holds `project x w r`.
-/
import proofs.«143427_j20667382628838_1_alg».proof.Proof.Gen.KernelIdeal.Frame
import proofs.«143427_j20667382628838_1_alg».proof.Proof.Tiles
import proofs.«143427_j20667382628838_1_alg».proof.Proof.LibNodeRows

set_option maxRecDepth 16384

noncomputable section

namespace Cert.KernelIdeal.Region0

open Cert.KernelIdeal Cert.KernelIdeal.Gen
open Idealize.ShloMosaic Idealize.ShloMosaic.TcCoe Idealize.ShloMosaic.ValueIdx Idealize.ShloMosaic.NodeRows Idealize.SL.Sem
open Idealize.ShloMosaic.Pipeline (Dat Cfg Window)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the block of rows read moves with the block of rows written, every other
    window stays at its one block, and the written block's row index is below ten. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 9 :=
  (by decide +kernel : ∀ t : Fin grid0.N, _)

/-- Each of the ten row blocks is some grid point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What grid point `t` writes back is block `t` of the whole-array map of the arrays as the region finds them. -/
theorem flushed (c : Dev nD) (t : Fin cfg0.N) :
    (dat0 V c).flushed 3 t = ((cfg0.win 3).blk t).view.read (Elt Ideal) (project (V c main_arg0) (V c main_arg2) (V c main_v0)) := by
  show (cfg0.win 3).cut (grid0.coords t) ((dat0 V c).after 3 t) = _
  rw [after0_3]
  unfold out0_3
  rw [View.canon_unit_zero hz]
  simp only [View.ld_unit_zero (S := S2000x768) hz, View.ld_unit_zero (S := S768x128) hz, View.ld_unit_zero (S := S1x128) hz]
  obtain ⟨e0, e1, e2, e3, e4, e5, e6, e7⟩ := idx_facts t
  funext j
  obtain ⟨p, q, rfl⟩ : ∃ (p : Fin 2000) (q : Fin 128), j = ix2 p q := ⟨j 0, j 1, eq_ix2 j⟩
  refine (Tiles.project_entry (iblk0 V c 0 t) (iblk0 V c 1 t) (iblk0 V c 2 t) p q).trans ?_
  refine (project_rows (V c main_arg0) (V c main_arg2) (V c main_v0) (iblk0 V c 0 t) (iblk0 V c 1 t) (iblk0 V c 2 t) (fun p' : Fin 2000 => (⟨win0_3.index t (0 : Fin 2) * 2000 + p'.val, by have := p'.isLt; omega⟩ : Fin 20000)) ?_ ?_ ?_ p q).trans ?_
  · intro p' k'
    show V c main_arg0 (((cfg0.win 0).blk t).view.emb (ix2 p' k')) = V c main_arg0 (ix2 (⟨win0_3.index t (0 : Fin 2) * 2000 + p'.val, by have := p'.isLt; omega⟩ : Fin 20000) k')
    refine congrArg (V c main_arg0) (funext fun a => Fin.ext ?_)
    match a with
    | ⟨0, _⟩ => show win0_0.index t (0 : Fin 2) * 2000 + 1 * p'.val = win0_3.index t (0 : Fin 2) * 2000 + p'.val; omega
    | ⟨1, _⟩ => show win0_0.index t (1 : Fin 2) * 768 + 1 * k'.val = k'.val; omega
  · intro k' q'
    show V c main_arg2 (((cfg0.win 1).blk t).view.emb (ix2 k' q')) = V c main_arg2 (ix2 k' q')
    refine congrArg (V c main_arg2) (funext fun a => Fin.ext ?_)
    match a with
    | ⟨0, _⟩ => show win0_1.index t (0 : Fin 2) * 768 + 1 * k'.val = k'.val; omega
    | ⟨1, _⟩ => show win0_1.index t (1 : Fin 2) * 128 + 1 * q'.val = q'.val; omega
  · intro q'
    show V c main_v0 (((cfg0.win 2).blk t).view.emb (ix2 (0 : Fin 1) q')) = V c main_v0 (ix2 (0 : Fin 1) q')
    refine congrArg (V c main_v0) (funext fun a => Fin.ext ?_)
    match a with
    | ⟨0, _⟩ => show win0_2.index t (0 : Fin 2) * 1 + 1 * 0 = 0; omega
    | ⟨1, _⟩ => show win0_2.index t (1 : Fin 2) * 128 + 1 * q'.val = q'.val; omega
  · show (project (V c main_arg0) (V c main_arg2) (V c main_v0)) (ix2 (⟨win0_3.index t (0 : Fin 2) * 2000 + p.val, by have := p.isLt; omega⟩ : Fin 20000) q)
      = (project (V c main_arg0) (V c main_arg2) (V c main_v0)) (((cfg0.win 3).blk t).view.emb (ix2 p q))
    refine congrArg (project (V c main_arg0) (V c main_arg2) (V c main_v0)) (funext fun a => Fin.ext ?_)
    match a with
    | ⟨0, _⟩ => show win0_3.index t (0 : Fin 2) * 2000 + p.val = win0_3.index t (0 : Fin 2) * 2000 + 1 * p.val; omega
    | ⟨1, _⟩ => show q.val = win0_3.index t (1 : Fin 2) * 128 + 1 * q.val; omega

/-- An index of the written array is in point `t`'s block iff each coordinate is in the block's range on its axis. -/
theorem mem_blk (t : Fin cfg0.N) (i : S20000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- The ten blocks of 2000 rows tile the 20000 rows: row `r` is in the block of the point whose row index is `r / 2000`. -/
theorem cover (i : S20000x128.Idx) : ∃ t : Fin cfg0.N, (cfg0.win 3).flush t = true ∧ i ∈ ((cfg0.win 3).blk t).view.set := by
  have hi0 : (i 0).val < 20000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The written array after the region: the whole-array map of the arrays the region read. -/
theorem final (c : Dev nD) : (dat0 V c).arrAt 3 cfg0.N = project (V c main_arg0) (V c main_arg2) (V c main_v0) :=
  (dat0 V c).arrAt_eq_of_cover 3 _ (fun t _ => flushed V c t) cover

end Cert.KernelIdeal.Region0

end
-- ==== Proof.Region1.lean ====
/-
  The first layer's product region: a hundred thousand node rows, ten thousand at a time.

  The region's ten grid points each read rows `10000 t … 10000 t + 9999` of the `[100000, 128]` node array (the joined node features) and all of the
  weight matrix , and write the same rows of the output with the product of what they read. A row of `x · w` depends on the
  same row of `x` only, so each written block is that block of the one array `lin x w`; the ten blocks tile the output.
-/
import proofs.«143427_j20667382628838_1_alg».proof.Proof.Gen.KernelIdeal.Frame
import proofs.«143427_j20667382628838_1_alg».proof.Proof.Tiles
import proofs.«143427_j20667382628838_1_alg».proof.Proof.LibNodeRows

set_option maxRecDepth 16384

noncomputable section

namespace Cert.KernelIdeal.Region1

open Cert.KernelIdeal Cert.KernelIdeal.Gen
open Idealize.ShloMosaic Idealize.ShloMosaic.TcCoe Idealize.ShloMosaic.ValueIdx Idealize.ShloMosaic.NodeRows Idealize.SL.Sem
open Idealize.ShloMosaic.Pipeline (Dat Cfg Window)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the block of rows read moves with the block of rows written, every other
    window stays at its one block, and the written block's row index is below ten. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Each of the ten row blocks is some grid point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What grid point `t` writes back is block `t` of the whole-array map of the arrays as the region finds them. -/
theorem flushed (c : Dev nD) (t : Fin cfg1.N) :
    (dat1 V c).flushed 2 t = ((cfg1.win 2).blk t).view.read (Elt Ideal) (lin (V c main_v2) (V c main_arg5)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  refine (Tiles.lin1_entry (iblk1 V c 0 t) (iblk1 V c 1 t) p q).trans ?_
  refine (lin_rows (V c main_v2) (V c main_arg5) (iblk1 V c 0 t) (iblk1 V c 1 t) (fun p' : Fin 10000 => (⟨win1_2.index t (0 : Fin 2) * 10000 + p'.val, by have := p'.isLt; omega⟩ : Fin 100000)) ?_ ?_ p q).trans ?_
  · intro p' k'
    show V c main_v2 (((cfg1.win 0).blk t).view.emb (ix2 p' k')) = V c main_v2 (ix2 (⟨win1_2.index t (0 : Fin 2) * 10000 + p'.val, by have := p'.isLt; omega⟩ : Fin 100000) k')
    refine congrArg (V c main_v2) (funext fun a => Fin.ext ?_)
    match a with
    | ⟨0, _⟩ => show win1_0.index t (0 : Fin 2) * 10000 + 1 * p'.val = win1_2.index t (0 : Fin 2) * 10000 + p'.val; omega
    | ⟨1, _⟩ => show win1_0.index t (1 : Fin 2) * 128 + 1 * k'.val = k'.val; omega
  · intro k' q'
    show V c main_arg5 (((cfg1.win 1).blk t).view.emb (ix2 k' q')) = V c main_arg5 (ix2 k' q')
    refine congrArg (V c main_arg5) (funext fun a => Fin.ext ?_)
    match a with
    | ⟨0, _⟩ => show win1_1.index t (0 : Fin 2) * 128 + 1 * k'.val = k'.val; omega
    | ⟨1, _⟩ => show win1_1.index t (1 : Fin 2) * 128 + 1 * q'.val = q'.val; omega
  · show (lin (V c main_v2) (V c main_arg5)) (ix2 (⟨win1_2.index t (0 : Fin 2) * 10000 + p.val, by have := p.isLt; omega⟩ : Fin 100000) q)
      = (lin (V c main_v2) (V c main_arg5)) (((cfg1.win 2).blk t).view.emb (ix2 p q))
    refine congrArg (lin (V c main_v2) (V c main_arg5)) (funext fun a => Fin.ext ?_)
    match a with
    | ⟨0, _⟩ => show win1_2.index t (0 : Fin 2) * 10000 + p.val = win1_2.index t (0 : Fin 2) * 10000 + 1 * p.val; omega
    | ⟨1, _⟩ => show q.val = win1_2.index t (1 : Fin 2) * 128 + 1 * q.val; omega

/-- An index of the written array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v33).slice (win1_2.rect t)).set ↔ _
  rw [View.set_slice_whole, Rect.mem_set_unit]
  exact Iff.rfl

/-- The ten blocks of 10000 rows tile the 100000 rows: row `r` is in the block of the point whose row index is `r / 10000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The written array after the region: the whole-array map of the arrays the region read. -/
theorem final (c : Dev nD) : (dat1 V c).arrAt 2 cfg1.N = lin (V c main_v2) (V c main_arg5) :=
  (dat1 V c).arrAt_eq_of_cover 2 _ (fun t _ => flushed V c t) cover

end Cert.KernelIdeal.Region1

end
-- ==== Proof.Region2.lean ====
/-
  The first layer's bias and rectifier region.

  The region's ten grid points each read rows `10000 t … 10000 t + 9999` of the `[100000, 128]` array (the first layer's aggregated rows) and the bias row ,
  and write the same rows of the output with the row added and the maximum with zero taken, entry by entry. Each written block is that block
  of the one array `addRowRelu x r`; the ten blocks tile the output.
-/
import proofs.«143427_j20667382628838_1_alg».proof.Proof.Gen.KernelIdeal.Frame
import proofs.«143427_j20667382628838_1_alg».proof.Proof.Tiles
import proofs.«143427_j20667382628838_1_alg».proof.Proof.LibNodeRows

set_option maxRecDepth 16384

noncomputable section

namespace Cert.KernelIdeal.Region2

open Cert.KernelIdeal Cert.KernelIdeal.Gen
open Idealize.ShloMosaic Idealize.ShloMosaic.TcCoe Idealize.ShloMosaic.ValueIdx Idealize.ShloMosaic.NodeRows Idealize.SL.Sem
open Idealize.ShloMosaic.Pipeline (Dat Cfg Window)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the block of rows read moves with the block of rows written, every other
    window stays at its one block, and the written block's row index is below ten. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Each of the ten row blocks is some grid point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What grid point `t` writes back is block `t` of the whole-array map of the arrays as the region finds them. -/
theorem flushed (c : Dev nD) (t : Fin cfg2.N) :
    (dat2 V c).flushed 2 t = ((cfg2.win 2).blk t).view.read (Elt Ideal) (addRowRelu (V c main_v46) (V c main_v47)) := by
  show (cfg2.win 2).cut (grid2.coords t) ((dat2 V c).after 2 t) = _
  rw [after2_2]
  unfold out2_2
  rw [View.canon_unit_zero hz]
  simp only [View.ld_unit_zero (S := S10000x128) hz, View.ld_unit_zero (S := S1x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  refine (Tiles.addRowRelu_entry (iblk2 V c 0 t) (iblk2 V c 1 t) p q).trans ?_
  refine (addRowRelu_rows (V c main_v46) (V c main_v47) (iblk2 V c 0 t) (iblk2 V c 1 t) (fun p' : Fin 10000 => (⟨win2_2.index t (0 : Fin 2) * 10000 + p'.val, by have := p'.isLt; omega⟩ : Fin 100000)) ?_ ?_ p q).trans ?_
  · intro p' q'
    show V c main_v46 (((cfg2.win 0).blk t).view.emb (ix2 p' q')) = V c main_v46 (ix2 (⟨win2_2.index t (0 : Fin 2) * 10000 + p'.val, by have := p'.isLt; omega⟩ : Fin 100000) q')
    refine congrArg (V c main_v46) (funext fun a => Fin.ext ?_)
    match a with
    | ⟨0, _⟩ => show win2_0.index t (0 : Fin 2) * 10000 + 1 * p'.val = win2_2.index t (0 : Fin 2) * 10000 + p'.val; omega
    | ⟨1, _⟩ => show win2_0.index t (1 : Fin 2) * 128 + 1 * q'.val = q'.val; omega
  · intro q'
    show V c main_v47 (((cfg2.win 1).blk t).view.emb (ix2 (0 : Fin 1) q')) = V c main_v47 (ix2 (0 : Fin 1) q')
    refine congrArg (V c main_v47) (funext fun a => Fin.ext ?_)
    match a with
    | ⟨0, _⟩ => show win2_1.index t (0 : Fin 2) * 1 + 1 * 0 = 0; omega
    | ⟨1, _⟩ => show win2_1.index t (1 : Fin 2) * 128 + 1 * q'.val = q'.val; omega
  · show (addRowRelu (V c main_v46) (V c main_v47)) (ix2 (⟨win2_2.index t (0 : Fin 2) * 10000 + p.val, by have := p.isLt; omega⟩ : Fin 100000) q)
      = (addRowRelu (V c main_v46) (V c main_v47)) (((cfg2.win 2).blk t).view.emb (ix2 p q))
    refine congrArg (addRowRelu (V c main_v46) (V c main_v47)) (funext fun a => Fin.ext ?_)
    match a with
    | ⟨0, _⟩ => show win2_2.index t (0 : Fin 2) * 10000 + p.val = win2_2.index t (0 : Fin 2) * 10000 + 1 * p.val; omega
    | ⟨1, _⟩ => show q.val = win2_2.index t (1 : Fin 2) * 128 + 1 * q.val; omega

/-- An index of the written array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- The ten blocks of 10000 rows tile the 100000 rows: row `r` is in the block of the point whose row index is `r / 10000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The written array after the region: the whole-array map of the arrays the region read. -/
theorem final (c : Dev nD) : (dat2 V c).arrAt 2 cfg2.N = addRowRelu (V c main_v46) (V c main_v47) :=
  (dat2 V c).arrAt_eq_of_cover 2 _ (fun t _ => flushed V c t) cover

end Cert.KernelIdeal.Region2

end
-- ==== Proof.Region3.lean ====
/-
  The second layer's product region.

  The region's ten grid points each read rows `10000 t … 10000 t + 9999` of the `[100000, 128]` node array (the first layer's output) and all of the
  weight matrix , and write the same rows of the output with the product of what they read. A row of `x · w` depends on the
  same row of `x` only, so each written block is that block of the one array `lin x w`; the ten blocks tile the output.
-/
import proofs.«143427_j20667382628838_1_alg».proof.Proof.Gen.KernelIdeal.Frame
import proofs.«143427_j20667382628838_1_alg».proof.Proof.Tiles
import proofs.«143427_j20667382628838_1_alg».proof.Proof.LibNodeRows

set_option maxRecDepth 16384

noncomputable section

namespace Cert.KernelIdeal.Region3

open Cert.KernelIdeal Cert.KernelIdeal.Gen
open Idealize.ShloMosaic Idealize.ShloMosaic.TcCoe Idealize.ShloMosaic.ValueIdx Idealize.ShloMosaic.NodeRows Idealize.SL.Sem
open Idealize.ShloMosaic.Pipeline (Dat Cfg Window)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the block of rows read moves with the block of rows written, every other
    window stays at its one block, and the written block's row index is below ten. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Each of the ten row blocks is some grid point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What grid point `t` writes back is block `t` of the whole-array map of the arrays as the region finds them. -/
theorem flushed (c : Dev nD) (t : Fin cfg3.N) :
    (dat3 V c).flushed 2 t = ((cfg3.win 2).blk t).view.read (Elt Ideal) (lin (V c main_v48) (V c main_arg7)) := by
  show (cfg3.win 2).cut (grid3.coords t) ((dat3 V c).after 2 t) = _
  rw [after3_2]
  unfold out3_2
  rw [View.canon_unit_zero hz]
  simp only [View.ld_unit_zero (S := S10000x128) hz, View.ld_unit_zero (S := S128x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  refine (Tiles.lin3_entry (iblk3 V c 0 t) (iblk3 V c 1 t) p q).trans ?_
  refine (lin_rows (V c main_v48) (V c main_arg7) (iblk3 V c 0 t) (iblk3 V c 1 t) (fun p' : Fin 10000 => (⟨win3_2.index t (0 : Fin 2) * 10000 + p'.val, by have := p'.isLt; omega⟩ : Fin 100000)) ?_ ?_ p q).trans ?_
  · intro p' k'
    show V c main_v48 (((cfg3.win 0).blk t).view.emb (ix2 p' k')) = V c main_v48 (ix2 (⟨win3_2.index t (0 : Fin 2) * 10000 + p'.val, by have := p'.isLt; omega⟩ : Fin 100000) k')
    refine congrArg (V c main_v48) (funext fun a => Fin.ext ?_)
    match a with
    | ⟨0, _⟩ => show win3_0.index t (0 : Fin 2) * 10000 + 1 * p'.val = win3_2.index t (0 : Fin 2) * 10000 + p'.val; omega
    | ⟨1, _⟩ => show win3_0.index t (1 : Fin 2) * 128 + 1 * k'.val = k'.val; omega
  · intro k' q'
    show V c main_arg7 (((cfg3.win 1).blk t).view.emb (ix2 k' q')) = V c main_arg7 (ix2 k' q')
    refine congrArg (V c main_arg7) (funext fun a => Fin.ext ?_)
    match a with
    | ⟨0, _⟩ => show win3_1.index t (0 : Fin 2) * 128 + 1 * k'.val = k'.val; omega
    | ⟨1, _⟩ => show win3_1.index t (1 : Fin 2) * 128 + 1 * q'.val = q'.val; omega
  · show (lin (V c main_v48) (V c main_arg7)) (ix2 (⟨win3_2.index t (0 : Fin 2) * 10000 + p.val, by have := p.isLt; omega⟩ : Fin 100000) q)
      = (lin (V c main_v48) (V c main_arg7)) (((cfg3.win 2).blk t).view.emb (ix2 p q))
    refine congrArg (lin (V c main_v48) (V c main_arg7)) (funext fun a => Fin.ext ?_)
    match a with
    | ⟨0, _⟩ => show win3_2.index t (0 : Fin 2) * 10000 + p.val = win3_2.index t (0 : Fin 2) * 10000 + 1 * p.val; omega
    | ⟨1, _⟩ => show q.val = win3_2.index t (1 : Fin 2) * 128 + 1 * q.val; omega

/-- An index of the written array is in point `t`'s block iff each coordinate is in the block's range on its axis. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v49).slice (win3_2.rect t)).set ↔ _
  rw [View.set_slice_whole, Rect.mem_set_unit]
  exact Iff.rfl

/-- The ten blocks of 10000 rows tile the 100000 rows: row `r` is in the block of the point whose row index is `r / 10000`. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The written array after the region: the whole-array map of the arrays the region read. -/
theorem final (c : Dev nD) : (dat3 V c).arrAt 2 cfg3.N = lin (V c main_v48) (V c main_arg7) :=
  (dat3 V c).arrAt_eq_of_cover 2 _ (fun t _ => flushed V c t) cover

end Cert.KernelIdeal.Region3

end
-- ==== Proof.Region4.lean ====
/-
  The second layer's bias region: the kernel's result.

  The region's ten grid points each read rows `10000 t … 10000 t + 9999` of the `[100000, 128]` array (the second layer's aggregated rows) and the bias row ,
  and write the same rows of the result with the row added, entry by entry. Each written block is that block
  of the one array `addRow x r`; the ten blocks tile the output.
-/
import proofs.«143427_j20667382628838_1_alg».proof.Proof.Gen.KernelIdeal.Frame
import proofs.«143427_j20667382628838_1_alg».proof.Proof.Tiles
import proofs.«143427_j20667382628838_1_alg».proof.Proof.LibNodeRows

set_option maxRecDepth 16384

noncomputable section

namespace Cert.KernelIdeal.Region4

open Cert.KernelIdeal Cert.KernelIdeal.Gen
open Idealize.ShloMosaic Idealize.ShloMosaic.TcCoe Idealize.ShloMosaic.ValueIdx Idealize.ShloMosaic.NodeRows Idealize.SL.Sem
open Idealize.ShloMosaic.Pipeline (Dat Cfg Window)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the block of rows read moves with the block of rows written, every other
    window stays at its one block, and the written block's row index is below ten. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Each of the ten row blocks is some grid point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-- What grid point `t` writes back is block `t` of the whole-array map of the arrays as the region finds them. -/
theorem flushed (c : Dev nD) (t : Fin cfg4.N) :
    (dat4 V c).flushed 2 t = ((cfg4.win 2).blk t).view.read (Elt Ideal) (addRow (V c main_v62) (V c main_v63)) := by
  show (cfg4.win 2).cut (grid4.coords t) ((dat4 V c).after 2 t) = _
  rw [after4_2]
  unfold out4_2
  rw [View.canon_unit_zero hz]
  simp only [View.ld_unit_zero (S := S10000x128) hz, View.ld_unit_zero (S := S1x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  refine (Tiles.addRow_entry (iblk4 V c 0 t) (iblk4 V c 1 t) p q).trans ?_
  refine (addRow_rows (V c main_v62) (V c main_v63) (iblk4 V c 0 t) (iblk4 V c 1 t) (fun p' : Fin 10000 => (⟨win4_2.index t (0 : Fin 2) * 10000 + p'.val, by have := p'.isLt; omega⟩ : Fin 100000)) ?_ ?_ p q).trans ?_
  · intro p' q'
    show V c main_v62 (((cfg4.win 0).blk t).view.emb (ix2 p' q')) = V c main_v62 (ix2 (⟨win4_2.index t (0 : Fin 2) * 10000 + p'.val, by have := p'.isLt; omega⟩ : Fin 100000) q')
    refine congrArg (V c main_v62) (funext fun a => Fin.ext ?_)
    match a with
    | ⟨0, _⟩ => show win4_0.index t (0 : Fin 2) * 10000 + 1 * p'.val = win4_2.index t (0 : Fin 2) * 10000 + p'.val; omega
    | ⟨1, _⟩ => show win4_0.index t (1 : Fin 2) * 128 + 1 * q'.val = q'.val; omega
  · intro q'
    show V c main_v63 (((cfg4.win 1).blk t).view.emb (ix2 (0 : Fin 1) q')) = V c main_v63 (ix2 (0 : Fin 1) q')
    refine congrArg (V c main_v63) (funext fun a => Fin.ext ?_)
    match a with
    | ⟨0, _⟩ => show win4_1.index t (0 : Fin 2) * 1 + 1 * 0 = 0; omega
    | ⟨1, _⟩ => show win4_1.index t (1 : Fin 2) * 128 + 1 * q'.val = q'.val; omega
  · show (addRow (V c main_v62) (V c main_v63)) (ix2 (⟨win4_2.index t (0 : Fin 2) * 10000 + p.val, by have := p.isLt; omega⟩ : Fin 100000) q)
      = (addRow (V c main_v62) (V c main_v63)) (((cfg4.win 2).blk t).view.emb (ix2 p q))
    refine congrArg (addRow (V c main_v62) (V c main_v63)) (funext fun a => Fin.ext ?_)
    match a with
    | ⟨0, _⟩ => show win4_2.index t (0 : Fin 2) * 10000 + p.val = win4_2.index t (0 : Fin 2) * 10000 + 1 * p.val; omega
    | ⟨1, _⟩ => show q.val = win4_2.index t (1 : Fin 2) * 128 + 1 * q.val; omega

/-- An index of the written array is in point `t`'s block iff each coordinate is in the block's range on its axis. -/
theorem mem_blk (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v64).slice (win4_2.rect t)).set ↔ _
  rw [View.set_slice_whole, Rect.mem_set_unit]
  exact Iff.rfl

/-- The ten blocks of 10000 rows tile the 100000 rows: row `r` is in the block of the point whose row index is `r / 10000`. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The written array after the region: the whole-array map of the arrays the region read. -/
theorem final (c : Dev nD) : (dat4 V c).arrAt 2 cfg4.N = addRow (V c main_v62) (V c main_v63) :=
  (dat4 V c).arrAt_eq_of_cover 2 _ (fun t _ => flushed V c t) cover

end Cert.KernelIdeal.Region4

end
-- ==== Proof.Spec.lean ====
/-
  The two-layer graph convolution as one function of the nine argument arrays, over the extended reals.

  The graph has 100000 nodes and 1600000 directed edges, given as a `[2, 1600000]` table of sources (row 0) and targets
  (row 1). Every node gets a self loop, so the edge list has 1700000 entries: `src` and `dst`.

    * `deg n` is the number of edges into `n`, summed as ones; `dinv n` is `deg n ^ (-1/2)` where `deg n > 0`, else `0`;
      edge `e` weighs `nrm e = dinv (src e) * dinv (dst e)` (a negative index counts from the table's end).
    * `aggOf s d w h` sends node rows `h` along the edges: row `n` of the result is the sum over the edges `e` with
      target `d e = n` of `w e` times row `s e` of `h`; `agg x1 h` is that for the graph `x1`.
    * The node features are the first 20000 rows projected from 768 to 128 columns (`project`), joined with the other
      80000 rows as given.
    * A layer is `h ↦ agg (h · W) + b`; the forward map is two layers with the maximum with zero in between.

  `forward` states this with the dense pieces as the whole-array maps `project`, `lin`, `addRow`, `addRowRelu`;
  `hostForward` is the same map spelt with the host's operations (`dot_general`, rows spread by `broadcast_in_dim`,
  `add`, `maximum`), and `hostForward_eq` says they are one function. The sparse part is common to both and is never opened.
-/
import proofs.«143427_j20667382628838_1_alg».proof.Proof.Gen.ReferenceIdeal
import proofs.«143427_j20667382628838_1_alg».proof.Proof.LibNodeRows

noncomputable section

namespace Cert.ReferenceIdeal.Spec

open Cert.ReferenceIdeal Cert.ReferenceIdeal.Gen Idealize.ShloMosaic Idealize.ShloMosaic.NodeRows

/-- A float array of shape `S` at the ideal values. -/
abbrev FA (S : Shape) : Type := FVec Ideal S .f32
/-- An array of 32-bit integers of shape `S`. -/
abbrev IA (S : Shape) : Type := IVec S 32

/-! ## The edge list -/

/-- The edges' sources, the self loops `0 … 99999` appended. -/
def src (x1 : IA S2x1600000) : IA S1700000 :=
  concatenate S1700000 0 [⟨S1600000, shapeCast S1600000 (extractStridedSlice S1x1600000 ![0, 0] x1 slices_S2x1600000_S1x1600000_0_0) shapeCasts_S1x1600000_S1600000⟩, ⟨S100000, iotaInDim S100000 32 0⟩] concatenates_S1600000_S100000_S1700000_d0

/-- The edges' targets, the self loops appended. -/
def dst (x1 : IA S2x1600000) : IA S1700000 :=
  concatenate S1700000 0 [⟨S1600000, shapeCast S1600000 (extractStridedSlice S1x1600000 ![1, 0] x1 slices_S2x1600000_S1x1600000_1_0) shapeCasts_S1x1600000_S1600000⟩, ⟨S100000, iotaInDim S100000 32 0⟩] concatenates_S1600000_S100000_S1700000_d0

/-- A list of node numbers as a column of gather / scatter positions. -/
def col (v : IA S1700000) : IA S1700000x1 := broadcastInDim S1700000x1 ![0] bcast_S1700000_S1700000x1_0 v

/-- A negative node number counts from the end of the table of 100000 nodes. -/
def wrap (v : IA S1700000) : IA S1700000 :=
  select (cmpi .slt v (broadcastInDim S1700000 ![] bcast_S_S1700000 (constantI S_ 32 0#32)))
    (addi v (broadcastInDim S1700000 ![] bcast_S_S1700000 (constantI S_ 32 100000#32))) v

/-! ## The symmetric normalisation -/

/-- The in-degrees: ones summed into the targets. -/
def deg (d : IA S1700000) : FA S100000 :=
  Host.scatterAdd (F := Ideal) scatter_S100000_S1700000x1_S1700000_n_0_0_1
    (broadcastInDim S100000 ![] bcast_S_S100000 (constant (F := Ideal) S_ .f32 0x00000000#32)) (col d)
    (broadcastInDim S1700000 ![] bcast_S_S1700000 (constant (F := Ideal) S_ .f32 0x3F800000#32))

/-- The inverse square roots of the positive in-degrees, zero elsewhere. -/
def dinv (d : IA S1700000) : FA S100000 :=
  select (cmpf .ogt (deg d) (broadcastInDim S100000 ![] bcast_S_S100000 (constant (F := Ideal) S_ .f32 0x00000000#32)))
    (Host.rsqrt (F := Ideal) (deg d))
    (broadcastInDim S100000 ![] bcast_S_S100000 (constant (F := Ideal) S_ .f32 0x00000000#32))

/-- The edges' weights: the product of the two ends' inverse square roots. -/
def nrmOf (s d : IA S1700000) : FA S1700000 :=
  mulf (Host.gather gather_S100000_S1700000x1_S1700000_n_0_n_n_0_1_1 (dinv d) (col (wrap s)))
    (Host.gather gather_S100000_S1700000x1_S1700000_n_0_n_n_0_1_1 (dinv d) (col (wrap d)))

/-! ## Sending node rows along the edges -/

/-- Row `n` of the result is the sum over the edges into `n` of the edge's weight times its source's row of `h`. -/
def aggOf (s d : IA S1700000) (w : FA S1700000) (h : FA S100000x128) : FA S100000x128 :=
  Host.scatterAdd (F := Ideal) scatter_S100000x128_S1700000x1_S1700000x128_1_0_0_1
    (broadcastInDim S100000x128 ![] bcast_S_S100000x128 (constant (F := Ideal) S_ .f32 0x00000000#32)) (col d)
    (mulf (Host.gather gather_S100000x128_S1700000x1_S1700000x128_1_0_n_n_0_1_1128 h (col (wrap s)))
      (broadcastInDim S1700000x128 ![0, 1] bcast_S1700000x1_S1700000x128_0_1 (broadcastInDim S1700000x1 ![0] bcast_S1700000_S1700000x1_0 w)))

/-- The same for the graph given by the edge table `x1`. -/
def agg (x1 : IA S2x1600000) (h : FA S100000x128) : FA S100000x128 :=
  aggOf (src x1) (dst x1) (nrmOf (src x1) (dst x1)) h

/-! ## The dense pieces and the forward map -/

/-- A bias vector as one row. -/
def row (b : FA S128) : FA S1x128 := broadcastInDim S1x128 ![1] bcast_S128_S1x128_1 b

/-- The first 20000 rows projected, joined with the other 80000. -/
def nodesOf (top : FA S20000x128) (x4 : FA S80000x128) : FA S100000x128 :=
  concatenate S100000x128 0 [⟨S20000x128, top⟩, ⟨S80000x128, x4⟩] concatenates_S20000x128_S80000x128_S100000x128_d0

/-- The forward map: two graph-convolution layers over the joined node features. -/
def forward (x0 : FA S20000x768) (x1 : IA S2x1600000) (x2 : FA S768x128) (x3 : FA S128) (x4 : FA S80000x128)
    (x5 : FA S128x128) (x6 : FA S128) (x7 : FA S128x128) (x8 : FA S128) : FA S100000x128 :=
  addRow (M := 100000) (N := 128)
    (agg x1 (lin (M := 100000) (K := 128) (N := 128)
      (addRowRelu (M := 100000) (N := 128)
        (agg x1 (lin (M := 100000) (K := 128) (N := 128)
          (nodesOf (project (M := 20000) (K := 768) (N := 128) x0 x2 (row x3)) x4) x5)) (row x6)) x7)) (row x8)

/-- The same map in the host's spelling. -/
def hostForward (x0 : FA S20000x768) (x1 : IA S2x1600000) (x2 : FA S768x128) (x3 : FA S128) (x4 : FA S80000x128)
    (x5 : FA S128x128) (x6 : FA S128) (x7 : FA S128x128) (x8 : FA S128) : FA S100000x128 :=
  addf
    (agg x1 (Host.dotGeneral (F := Ideal) dot_S100000x128_S128x128_S100000x128_1_0_0_1_n_n none
      (maximumf
        (addf
          (agg x1 (Host.dotGeneral (F := Ideal) dot_S100000x128_S128x128_S100000x128_1_0_0_1_n_n none
            (nodesOf (addf (Host.dotGeneral (F := Ideal) dot_S20000x768_S768x128_S20000x128_1_0_0_1_n_n none x0 x2)
              (broadcastInDim S20000x128 ![0, 1] bcast_S1x128_S20000x128_0_1 (row x3))) x4) x5))
          (broadcastInDim S100000x128 ![0, 1] bcast_S1x128_S100000x128_0_1 (row x6)))
        (broadcastInDim S100000x128 ![] bcast_S_S100000x128 (constant (F := Ideal) S_ .f32 0x00000000#32))) x7))
    (broadcastInDim S100000x128 ![0, 1] bcast_S1x128_S100000x128_0_1 (row x8))

/-- The projection's dimension numbers are the plain ones. -/
theorem dot_project_plain : dot_S20000x768_S768x128_S20000x128_1_0_0_1_n_n = DotDims.plain 20000 768 128 := rfl
/-- So are the layer products'. -/
theorem dot_lin_plain : dot_S100000x128_S128x128_S100000x128_1_0_0_1_n_n = DotDims.plain 100000 128 128 := rfl

/-- The host's spelling is the forward map. -/
theorem hostForward_eq (x0 : FA S20000x768) (x1 : IA S2x1600000) (x2 : FA S768x128) (x3 : FA S128) (x4 : FA S80000x128)
    (x5 : FA S128x128) (x6 : FA S128) (x7 : FA S128x128) (x8 : FA S128) :
    hostForward x0 x1 x2 x3 x4 x5 x6 x7 x8 = forward x0 x1 x2 x3 x4 x5 x6 x7 x8 := by
  unfold hostForward forward
  have eP := dotGeneral_addf_spread_eq_project (M := 20000) (K := 768) (N := 128)
    dot_S20000x768_S768x128_S20000x128_1_0_0_1_n_n dot_project_plain none .single x0 x2 (row x3) bcast_S1x128_S20000x128_0_1
  have eL := fun (x : FA S100000x128) (w : FA S128x128) => dotGeneral_eq_lin (M := 100000) (K := 128) (N := 128)
    dot_S100000x128_S128x128_S100000x128_1_0_0_1_n_n dot_lin_plain none .single x w
  have eR := fun (x : FA S100000x128) (r : FA S1x128) => maximumf_addf_spread_eq_addRowRelu (M := 100000) (N := 128) x r
    bcast_S1x128_S100000x128_0_1 bcast_S_S100000x128
  have eA := fun (x : FA S100000x128) (r : FA S1x128) => addf_spread_eq_addRow (M := 100000) (N := 128) x r bcast_S1x128_S100000x128_0_1
  rw [show addf (Host.dotGeneral (F := Ideal) dot_S20000x768_S768x128_S20000x128_1_0_0_1_n_n none x0 x2)
      (broadcastInDim S20000x128 ![0, 1] bcast_S1x128_S20000x128_0_1 (row x3)) = project (M := 20000) (K := 768) (N := 128) x0 x2 (row x3) from eP]
  rw [show Host.dotGeneral (F := Ideal) dot_S100000x128_S128x128_S100000x128_1_0_0_1_n_n none
      (nodesOf (project (M := 20000) (K := 768) (N := 128) x0 x2 (row x3)) x4) x5 = lin (M := 100000) (K := 128) (N := 128) _ x5 from eL _ x5]
  rw [eR, show ∀ (x : FA S100000x128), Host.dotGeneral (F := Ideal) dot_S100000x128_S128x128_S100000x128_1_0_0_1_n_n none x x7
      = lin (M := 100000) (K := 128) (N := 128) x x7 from fun x => eL x x7, eA]

end Cert.ReferenceIdeal.Spec

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.LibRowOfVector.lean ====
/-
  A vector laid out as one row, two ways.

  An array of shape `[n]` becomes an array of shape `[1, n]` either by a reshape or by a broadcast that sends its one axis
  to the second axis of the result. Both read, at `(u, j)`, the vector at `j` (the unit coordinate `u` is `0`), so they
  are the same array.
-/
import Idealize.ShloMosaic.Lib.Pipeline.Value
import Idealize.ShloMosaic.Lib.ValueIdx
import Idealize.ShloMosaic.Lib.ValueLayout

noncomputable section

namespace Idealize.ShloMosaic.RowOfVector

open Idealize.ShloMosaic Idealize.ShloMosaic.ValueIdx

/-- An `[n]` array reshaped to `[1, n]` is the same array broadcast along the second axis. -/
theorem shapeCast_eq_broadcastInDim {α : Type} (n : ℕ) (x : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ (![1] : Fin 1 → Fin 2)) :
    shapeCast ⟨2, ![1, n]⟩ x h1 = broadcastInDim ⟨2, ![1, n]⟩ (![1] : Fin 1 → Fin 2) h2 x := by
  funext i
  obtain ⟨u, j, rfl⟩ : ∃ (u : Fin 1) (j : Fin n), i = ix2 u j := ⟨i 0, i 1, eq_ix2 i⟩
  rw [shapeCast_a_1a_apply]
  refine (broadcastInDim_apply _ h2 x (ix2 u j) (ix1 j) (fun a => ?_)).symm
  match a with
  | ⟨0, _⟩ =>
    show j.val = if n = 1 then 0 else j.val
    split
    · have := j.isLt; omega
    · rfl

end Idealize.ShloMosaic.RowOfVector

end
-- ==== Proof.KernelValue.lean ====
/-
  The kernel's result is the forward map of its arguments.

  Boundary by boundary through the kernel's program, at the ideal values:

    * the bias vectors reach their regions reshaped to one row, which is the row the forward map uses;
    * the projection region leaves `project x0 x2 (row x3)`, and the host joins it with the other 80000 rows;
    * the host makes the edge lists `src`, `dst` and the edge weights `nrmOf src dst` from the edge table, once;
    * each layer's product region leaves `lin h W`; the host then gathers its rows along the edges, scales them and sums
      them into the targets (`aggOf`), reading the edge lists and weights made before the first layer;
    * the bias regions leave `addRowRelu · (row b1)` after the first layer and `addRow · (row b2)` after the second.

  Nothing between a value's making and its reading writes it (Kept), so composing these gives `forward` of the nine
  arguments as launched, in the very arrangement the reference computes: no sum is reordered and no entry need be finite.
-/
import proofs.«143427_j20667382628838_1_alg».proof.Proof.Gen.KernelIdeal.Frame
import proofs.«143427_j20667382628838_1_alg».proof.Proof.Kept
import proofs.«143427_j20667382628838_1_alg».proof.Proof.Region0
import proofs.«143427_j20667382628838_1_alg».proof.Proof.Region1
import proofs.«143427_j20667382628838_1_alg».proof.Proof.Region2
import proofs.«143427_j20667382628838_1_alg».proof.Proof.Region3
import proofs.«143427_j20667382628838_1_alg».proof.Proof.Region4
import proofs.«143427_j20667382628838_1_alg».proof.Proof.Spec
import proofs.«143427_j20667382628838_1_alg».proof.Proof.LibJoinedPair
import proofs.«143427_j20667382628838_1_alg».proof.Proof.LibRowOfVector

set_option maxRecDepth 16384

noncomputable section

namespace Cert.KernelIdeal.Forward

open Cert.KernelIdeal Cert.KernelIdeal.Gen
open Cert.ReferenceIdeal.Spec
open Idealize.ShloMosaic Idealize.ShloMosaic.TcCoe Idealize.SL.Sem Idealize.ShloMosaic.NodeRows
open Idealize.ShloMosaic.Pipeline (Dat Cfg Window)

variable (m : (ℓ : Loc nD τ sig) → Buf (Elt Ideal) ℓ) (ρ : Dev nD → PrngReg)

/-! ## The masked select's buffers

  The host calls a small function for `where (deg > 0) (rsqrt deg) 0`; its values pass through buffers named with their
  types. Moving contents into such a buffer's own type, or out of it, is the identity: the two types are the same. -/

theorem toBuf_main_cst_2 (h1 h2 h3) (v : FVec Ideal S_ .f32) : (StableHlo.TRef.of (sig := sig) (T := ⟨S_, .f32⟩) main_cst_2 h1 h2 h3).toBuf (Val := Elt Ideal) v = v := rfl
theorem ofBuf_main_cst_2 (h1 h2 h3) (v : FVec Ideal S_ .f32) : (StableHlo.TRef.of (sig := sig) (T := ⟨S_, .f32⟩) main_cst_2 h1 h2 h3).ofBuf (Val := Elt Ideal) v = v := rfl
theorem toBuf_main_call0_v0 (h1 h2 h3) (v : FVec Ideal S_ .f32) : (StableHlo.TRef.of (sig := sig) (T := ⟨S_, .f32⟩) main_call0_v0 h1 h2 h3).toBuf (Val := Elt Ideal) v = v := rfl
theorem ofBuf_main_call0_v0 (h1 h2 h3) (v : FVec Ideal S_ .f32) : (StableHlo.TRef.of (sig := sig) (T := ⟨S_, .f32⟩) main_call0_v0 h1 h2 h3).ofBuf (Val := Elt Ideal) v = v := rfl
theorem toBuf_main_call0_v1 (h1 h2 h3) (v : FVec Ideal S100000 .f32) : (StableHlo.TRef.of (sig := sig) (T := ⟨S100000, .f32⟩) main_call0_v1 h1 h2 h3).toBuf (Val := Elt Ideal) v = v := rfl
theorem ofBuf_main_call0_v1 (h1 h2 h3) (v : FVec Ideal S100000 .f32) : (StableHlo.TRef.of (sig := sig) (T := ⟨S100000, .f32⟩) main_call0_v1 h1 h2 h3).ofBuf (Val := Elt Ideal) v = v := rfl
theorem toBuf_main_v15 (h1 h2 h3) (v : IVec S100000 1) : (StableHlo.TRef.of (sig := sig) (T := ⟨S100000, .i1⟩) main_v15 h1 h2 h3).toBuf (Val := Elt Ideal) v = v := rfl
theorem ofBuf_main_v15 (h1 h2 h3) (v : IVec S100000 1) : (StableHlo.TRef.of (sig := sig) (T := ⟨S100000, .i1⟩) main_v15 h1 h2 h3).ofBuf (Val := Elt Ideal) v = v := rfl
theorem toBuf_main_v16 (h1 h2 h3) (v : FVec Ideal S100000 .f32) : (StableHlo.TRef.of (sig := sig) (T := ⟨S100000, .f32⟩) main_v16 h1 h2 h3).toBuf (Val := Elt Ideal) v = v := rfl
theorem ofBuf_main_v16 (h1 h2 h3) (v : FVec Ideal S100000 .f32) : (StableHlo.TRef.of (sig := sig) (T := ⟨S100000, .f32⟩) main_v16 h1 h2 h3).ofBuf (Val := Elt Ideal) v = v := rfl
theorem toBuf_main_v17 (h1 h2 h3) (v : FVec Ideal S100000 .f32) : (StableHlo.TRef.of (sig := sig) (T := ⟨S100000, .f32⟩) main_v17 h1 h2 h3).toBuf (Val := Elt Ideal) v = v := rfl
theorem ofBuf_main_v17 (h1 h2 h3) (v : FVec Ideal S100000 .f32) : (StableHlo.TRef.of (sig := sig) (T := ⟨S100000, .f32⟩) main_v17 h1 h2 h3).ofBuf (Val := Elt Ideal) v = v := rfl

/-! ## The bias rows -/

/-- The projection's bias, reshaped to one row. -/
theorem v0_eq (c : Dev nD) : W1 m ρ c (Proc.devRef .tc main_v0) = row (m ((c : Thread nD τ).loc main_arg3)) := by
  show StableHlo.after hostOps0 (W0 m ρ c) (Proc.devRef .tc main_v0) = _
  read_fold_casts [hostOps0]
  exact RowOfVector.shapeCast_eq_broadcastInDim 128 (W0 m ρ c (Proc.devRef .tc main_arg3)) shapeCasts_S128_S1x128
    Cert.ReferenceIdeal.Gen.bcast_S128_S1x128_1

/-- The first layer's bias, reshaped to one row. -/
theorem v47_eq (c : Dev nD) : W7 m ρ c (Proc.devRef .tc main_v47) = row (W6 m ρ c (Proc.devRef .tc main_arg6)) := by
  show StableHlo.after hostOps2 (W6 m ρ c) (Proc.devRef .tc main_v47) = _
  read_fold_casts [hostOps2]
  exact RowOfVector.shapeCast_eq_broadcastInDim 128 (W6 m ρ c (Proc.devRef .tc main_arg6)) shapeCasts_S128_S1x128
    Cert.ReferenceIdeal.Gen.bcast_S128_S1x128_1

/-- The second layer's bias, reshaped to one row. -/
theorem v63_eq (c : Dev nD) : W10 m ρ c (Proc.devRef .tc main_v63) = row (W9 m ρ c (Proc.devRef .tc main_arg8)) := by
  show StableHlo.after hostOps4 (W9 m ρ c) (Proc.devRef .tc main_v63) = _
  read_fold_casts [hostOps4]
  exact RowOfVector.shapeCast_eq_broadcastInDim 128 (W9 m ρ c (Proc.devRef .tc main_arg8)) shapeCasts_S128_S1x128
    Cert.ReferenceIdeal.Gen.bcast_S128_S1x128_1

/-! ## The node features -/

/-- The projection region's output. -/
theorem v1_eq (c : Dev nD) : W2 m ρ c (Proc.devRef .tc main_v1)
    = project (M := 20000) (K := 768) (N := 128) (m ((c : Thread nD τ).loc main_arg0)) (m ((c : Thread nD τ).loc main_arg2)) (row (m ((c : Thread nD τ).loc main_arg3))) := by
  have h0 : V1 m ρ c main_arg0 = (m ((c : Thread nD τ).loc main_arg0)) := Kept.at1_main_arg0 m ρ c
  have h2 : V1 m ρ c main_arg2 = (m ((c : Thread nD τ).loc main_arg2)) := Kept.at1_main_arg2 m ρ c
  have h3 : V1 m ρ c main_v0 = row (m ((c : Thread nD τ).loc main_arg3)) := v0_eq m ρ c
  refine (W2_arr m ρ c 3).trans ((Region0.final (V1 m ρ) c).trans ?_)
  rw [h0, h2, h3]

/-- The joined node features, the edge lists and the edge weights, as the first layer's product region finds them. -/
theorem v2_eq (c : Dev nD) : W5 m ρ c (Proc.devRef .tc main_v2)
    = nodesOf (W2 m ρ c (Proc.devRef .tc main_v1)) (W2 m ρ c (Proc.devRef .tc main_arg4)) := by
  show StableHlo.after hostOps1_2 (StableHlo.after hostOps1_1 (StableHlo.after hostOps1 (W2 m ρ c))) (Proc.devRef .tc main_v2) = _
  read_fold_casts [hostOps1_2, hostOps1_1, hostOps1]
  rfl

theorem v6_eq (c : Dev nD) : W5 m ρ c (Proc.devRef .tc main_v6) = src (W2 m ρ c (Proc.devRef .tc main_arg1)) := by
  show StableHlo.after hostOps1_2 (StableHlo.after hostOps1_1 (StableHlo.after hostOps1 (W2 m ρ c))) (Proc.devRef .tc main_v6) = _
  read_fold_casts [hostOps1_2, hostOps1_1, hostOps1]
  rfl

theorem v9_eq (c : Dev nD) : W5 m ρ c (Proc.devRef .tc main_v9) = dst (W2 m ρ c (Proc.devRef .tc main_arg1)) := by
  show StableHlo.after hostOps1_2 (StableHlo.after hostOps1_1 (StableHlo.after hostOps1 (W2 m ρ c))) (Proc.devRef .tc main_v9) = _
  read_fold_casts [hostOps1_2, hostOps1_1, hostOps1]
  rfl

set_option maxHeartbeats 4000000 in
theorem v32_eq (c : Dev nD) : W5 m ρ c (Proc.devRef .tc main_v32)
    = nrmOf (src (W2 m ρ c (Proc.devRef .tc main_arg1))) (dst (W2 m ρ c (Proc.devRef .tc main_arg1))) := by
  show StableHlo.after hostOps1_2 (StableHlo.after hostOps1_1 (StableHlo.after hostOps1 (W2 m ρ c))) (Proc.devRef .tc main_v32) = _
  read_fold_casts [hostOps1_2, hostOps1_1, hostOps1, toBuf_main_v17, ofBuf_main_v15, ofBuf_main_v16, ofBuf_main_call0_v1, toBuf_main_call0_v1, ofBuf_main_call0_v0, toBuf_main_call0_v0, ofBuf_main_cst_2, id_eq]
  rfl

/-! ## The first layer -/

/-- The first layer's product region's output. -/
theorem v33_eq (c : Dev nD) : W6 m ρ c (Proc.devRef .tc main_v33)
    = lin (M := 100000) (K := 128) (N := 128) (W5 m ρ c (Proc.devRef .tc main_v2)) (W5 m ρ c (Proc.devRef .tc main_arg5)) :=
  (W6_arr m ρ c 2).trans (Region1.final (V5 m ρ) c)

set_option maxHeartbeats 4000000 in
/-- Its rows sent along the edges. -/
theorem v46_eq (c : Dev nD) : W7 m ρ c (Proc.devRef .tc main_v46)
    = aggOf (W6 m ρ c (Proc.devRef .tc main_v6)) (W6 m ρ c (Proc.devRef .tc main_v9)) (W6 m ρ c (Proc.devRef .tc main_v32))
        (W6 m ρ c (Proc.devRef .tc main_v33)) := by
  show StableHlo.after hostOps2 (W6 m ρ c) (Proc.devRef .tc main_v46) = _
  read_fold_casts [hostOps2]
  rfl

/-- The bias and rectifier region's output. -/
theorem v48_eq (c : Dev nD) : W8 m ρ c (Proc.devRef .tc main_v48)
    = addRowRelu (M := 100000) (N := 128) (W7 m ρ c (Proc.devRef .tc main_v46)) (W7 m ρ c (Proc.devRef .tc main_v47)) :=
  (W8_arr m ρ c 2).trans (Region2.final (V7 m ρ) c)

/-! ## The second layer -/

/-- The second layer's product region's output. -/
theorem v49_eq (c : Dev nD) : W9 m ρ c (Proc.devRef .tc main_v49)
    = lin (M := 100000) (K := 128) (N := 128) (W8 m ρ c (Proc.devRef .tc main_v48)) (W8 m ρ c (Proc.devRef .tc main_arg7)) :=
  (W9_arr m ρ c 2).trans (Region3.final (V8 m ρ) c)

set_option maxHeartbeats 4000000 in
/-- Its rows sent along the edges. -/
theorem v62_eq (c : Dev nD) : W10 m ρ c (Proc.devRef .tc main_v62)
    = aggOf (W9 m ρ c (Proc.devRef .tc main_v6)) (W9 m ρ c (Proc.devRef .tc main_v9)) (W9 m ρ c (Proc.devRef .tc main_v32))
        (W9 m ρ c (Proc.devRef .tc main_v49)) := by
  show StableHlo.after hostOps4 (W9 m ρ c) (Proc.devRef .tc main_v62) = _
  read_fold_casts [hostOps4]
  rfl

/-- The last bias region's output: the kernel's result. -/
theorem v64_eq (c : Dev nD) : W11 m ρ c (Proc.devRef .tc main_v64)
    = addRow (M := 100000) (N := 128) (W10 m ρ c (Proc.devRef .tc main_v62)) (W10 m ρ c (Proc.devRef .tc main_v63)) :=
  (W11_arr m ρ c 2).trans (Region4.final (V10 m ρ) c)

/-! ## The whole map -/

/-- The kernel's result buffer at the last boundary is the forward map of the arguments as launched. -/
theorem value (c : Dev nD) : W11 m ρ c (Proc.devRef .tc main_v64)
    = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [v64_eq, v63_eq, v62_eq, Kept.at9_main_arg8, Kept.at9_main_v6, Kept.at9_main_v9, Kept.at9_main_v32,
    v49_eq, Kept.at8_main_arg7, v48_eq, v47_eq, v46_eq, Kept.at6_main_arg6, Kept.at6_main_v6, Kept.at6_main_v9, Kept.at6_main_v32,
    v33_eq, Kept.at5_main_arg5, v2_eq, v1_eq, Kept.at2_main_arg4, v6_eq, v9_eq, v32_eq, Kept.at2_main_arg1]
  rfl

end Cert.KernelIdeal.Forward

end
-- ==== Proof.RefRun.lean ====
/-
  The reference program as a straight line of host operations, and its run.

  The reference computes, on the host alone, a two-layer graph convolution: project the first 20000 rows, join them with the
  remaining 80000, normalise the edges by the inverse square roots of the in-degrees (self loops added), and twice
  multiply by a weight matrix, gather along the edges, scale, sum into the target rows and add a bias, with a rectifier
  in between. As a list of operations its run is the fold of the operations' functions over the launch contents: every
  weakly fair execution ends, without a fault, with each buffer at that fold, and no operation writes an argument.
-/
import proofs.«143427_j20667382628838_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's 88 host operations, in program order; the two called functions (the masked select and the
    rectifier) stand inline where they are called. -/
abbrev ops : List (HloOp τ sig (Elt F)) :=
  [ binary main_arg0 main_arg2 main_v0 ((fun l r => Host.dotGeneral dot_S20000x768_S768x128_S20000x128_1_0_0_1_n_n none l r) : (⟨S20000x768, .f32⟩ : BufTy).Contents (Elt F) → (⟨S768x128, .f32⟩ : BufTy).Contents (Elt F) → (⟨S20000x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S20000x128 ![0, 1] bcast_S1x128_S20000x128_0_1 : (⟨S1x128, .f32⟩ : BufTy).Contents (Elt F) → (⟨S20000x128, .f32⟩ : BufTy).Contents (Elt F)),
    binary main_v0 main_v2 main_v3 (addf : (⟨S20000x128, .f32⟩ : BufTy).Contents (Elt F) → (⟨S20000x128, .f32⟩ : BufTy).Contents (Elt F) → (⟨S20000x128, .f32⟩ : BufTy).Contents (Elt F)),
    binary main_v3 main_arg4 main_v4 ((fun a b => concatenate S100000x128 0 [⟨S20000x128, a⟩, ⟨S80000x128, b⟩] concatenates_S20000x128_S80000x128_S100000x128_d0) : (⟨S20000x128, .f32⟩ : BufTy).Contents (Elt F) → (⟨S80000x128, .f32⟩ : BufTy).Contents (Elt F) → (⟨S100000x128, .f32⟩ : BufTy).Contents (Elt F)),
    nullary main_v5 (iotaInDim S100000 32 0),
    unary main_arg1 main_v6 ((extractStridedSlice S1x1600000 ![0, 0] · slices_S2x1600000_S1x1600000_0_0) : (⟨S2x1600000, .i32⟩ : BufTy).Contents (Elt F) → (⟨S1x1600000, .i32⟩ : BufTy).Contents (Elt F)),
    reshape main_v6 main_v7 rfl shapeCasts_S1x1600000_S1600000,
    binary main_v7 main_v5 main_v8 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v9 ((extractStridedSlice S1x1600000 ![1, 0] · slices_S2x1600000_S1x1600000_1_0) : (⟨S2x1600000, .i32⟩ : BufTy).Contents (Elt F) → (⟨S1x1600000, .i32⟩ : BufTy).Contents (Elt F)),
    reshape main_v9 main_v10 rfl shapeCasts_S1x1600000_S1600000,
    binary main_v10 main_v5 main_v11 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v12 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v13 (broadcastInDim S100000 ![] bcast_S_S100000 : (⟨S_, .f32⟩ : BufTy).Contents (Elt F) → (⟨S100000, .f32⟩ : BufTy).Contents (Elt F)),
    unary main_v11 main_v14 (broadcastInDim S1700000x1 ![0] bcast_S1700000_S1700000x1_0 : (⟨S1700000, .i32⟩ : BufTy).Contents (Elt F) → (⟨S1700000x1, .i32⟩ : BufTy).Contents (Elt F)),
    ternary main_v13 main_v14 main_v12 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v16 (broadcastInDim S100000 ![] bcast_S_S100000 : (⟨S_, .f32⟩ : BufTy).Contents (Elt F) → (⟨S100000, .f32⟩ : BufTy).Contents (Elt F)),
    binary main_v15 main_v16 main_v17 (cmpf .ogt : (⟨S100000, .f32⟩ : BufTy).Contents (Elt F) → (⟨S100000, .f32⟩ : BufTy).Contents (Elt F) → (⟨S100000, .i1⟩ : BufTy).Contents (Elt F)),
    unary main_v15 main_v18 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v17) (TRef.of (T := ⟨S100000, .f32⟩) main_v18) (TRef.of (T := ⟨S100000, .f32⟩) main_call0_v1) (TRef.of (T := ⟨S100000, .f32⟩) main_v19) select,
    nullary main_c (constantI S_ 32 0#32),
    unary main_c main_v20 (broadcastInDim S1700000 ![] bcast_S_S1700000 : (⟨S_, .i32⟩ : BufTy).Contents (Elt F) → (⟨S1700000, .i32⟩ : BufTy).Contents (Elt F)),
    binary main_v8 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v22 (broadcastInDim S1700000 ![] bcast_S_S1700000 : (⟨S_, .i32⟩ : BufTy).Contents (Elt F) → (⟨S1700000, .i32⟩ : BufTy).Contents (Elt F)),
    binary main_v8 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v8 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v27 (broadcastInDim S1700000 ![] bcast_S_S1700000 : (⟨S_, .i32⟩ : BufTy).Contents (Elt F) → (⟨S1700000, .i32⟩ : BufTy).Contents (Elt F)),
    binary main_v11 main_v27 main_v28 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v29 (broadcastInDim S1700000 ![] bcast_S_S1700000 : (⟨S_, .i32⟩ : BufTy).Contents (Elt F) → (⟨S1700000, .i32⟩ : BufTy).Contents (Elt F)),
    binary main_v11 main_v29 main_v30 (addi : (⟨S1700000, .i32⟩ : BufTy).Contents (Elt F) → (⟨S1700000, .i32⟩ : BufTy).Contents (Elt F) → (⟨S1700000, .i32⟩ : BufTy).Contents (Elt F)),
    ternary main_v28 main_v30 main_v11 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v31 main_v32 (broadcastInDim S1700000x1 ![0] bcast_S1700000_S1700000x1_0 : (⟨S1700000, .i32⟩ : BufTy).Contents (Elt F) → (⟨S1700000x1, .i32⟩ : BufTy).Contents (Elt F)),
    binary main_v19 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v26 main_v33 main_v34 (mulf : (⟨S1700000, .f32⟩ : BufTy).Contents (Elt F) → (⟨S1700000, .f32⟩ : BufTy).Contents (Elt F) → (⟨S1700000, .f32⟩ : BufTy).Contents (Elt F)),
    binary main_v4 main_arg5 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v36 (broadcastInDim S1700000 ![] bcast_S_S1700000 : (⟨S_, .i32⟩ : BufTy).Contents (Elt F) → (⟨S1700000, .i32⟩ : BufTy).Contents (Elt F)),
    binary main_v8 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v38 (broadcastInDim S1700000 ![] bcast_S_S1700000 : (⟨S_, .i32⟩ : BufTy).Contents (Elt F) → (⟨S1700000, .i32⟩ : BufTy).Contents (Elt F)),
    binary main_v8 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v8 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v35 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v34 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v46 (broadcastInDim S100000x128 ![] bcast_S_S100000x128 : (⟨S_, .f32⟩ : BufTy).Contents (Elt F) → (⟨S100000x128, .f32⟩ : BufTy).Contents (Elt F)),
    unary main_v11 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v51) (TRef.of (T := ⟨S100000x128, .f32⟩) main_call1_v0) (TRef.of (T := ⟨S100000x128, .f32⟩) main_v52) maximumf,
    binary main_v52 main_arg7 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v54 (broadcastInDim S1700000 ![] bcast_S_S1700000 : (⟨S_, .i32⟩ : BufTy).Contents (Elt F) → (⟨S1700000, .i32⟩ : BufTy).Contents (Elt F)),
    binary main_v8 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v56 (broadcastInDim S1700000 ![] bcast_S_S1700000 : (⟨S_, .i32⟩ : BufTy).Contents (Elt F) → (⟨S1700000, .i32⟩ : BufTy).Contents (Elt F)),
    binary main_v8 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v8 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v53 main_v59 main_v60 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v34 main_v61 (broadcastInDim S1700000x1 ![0] bcast_S1700000_S1700000x1_0 : (⟨S1700000, .f32⟩ : BufTy).Contents (Elt F) → (⟨S1700000x1, .f32⟩ : BufTy).Contents (Elt F)),
    unary main_v61 main_v62 (broadcastInDim S1700000x128 ![0, 1] bcast_S1700000x1_S1700000x128_0_1 : (⟨S1700000x1, .f32⟩ : BufTy).Contents (Elt F) → (⟨S1700000x128, .f32⟩ : BufTy).Contents (Elt F)),
    binary main_v60 main_v62 main_v63 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v64 (broadcastInDim S100000x128 ![] bcast_S_S100000x128 : (⟨S_, .f32⟩ : BufTy).Contents (Elt F) → (⟨S100000x128, .f32⟩ : BufTy).Contents (Elt F)),
    unary main_v11 main_v65 (broadcastInDim S1700000x1 ![0] bcast_S1700000_S1700000x1_0 : (⟨S1700000, .i32⟩ : BufTy).Contents (Elt F) → (⟨S1700000x1, .i32⟩ : BufTy).Contents (Elt F)),
    ternary main_v64 main_v65 main_v63 main_v66 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- What the run leaves in the result buffer: the fold of the operations over the launch contents, read there. -/
def result (m : (ℓ : Loc nD τ sig) → Buf (Elt F) ℓ) (c : Dev nD) : Buf (Elt F) ((c.tc : Thread nD τ).loc main_v69) :=
  after ops (launchContents m c) (Proc.devRef .tc main_v69)

set_option maxRecDepth 8192 in
set_option maxHeartbeats 35200000 in
/-- On every device, from any memory with zero counters: every weakly fair execution of the reference terminates with
    the result at the operations' fold and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v69,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.HandRun

end
-- ==== Proof.RefRead.lean ====
/-
  The reference's result is the forward map of its arguments.

  Read back operation by operation, the fold of the reference's 88 host operations at its result buffer is the forward
  map in the host's spelling, applied to the launch contents of the nine arguments: the edge lists and the edge weights are
  made once and read by both layers, each layer is a product, a gather along the edges, a scaling, a sum into the targets
  and a bias, and the rectifier sits between the layers. That spelling is the forward map itself (`hostForward_eq`).
-/
import proofs.«143427_j20667382628838_1_alg».proof.Proof.RefRun
import proofs.«143427_j20667382628838_1_alg».proof.Proof.Spec
import proofs.«143427_j20667382628838_1_alg».proof.Proof.LibJoinedPair

noncomputable section

namespace Cert.ReferenceIdeal.RefRead

open Cert.ReferenceIdeal Cert.ReferenceIdeal.Gen Cert.ReferenceIdeal.Spec
open Idealize.ShloMosaic Idealize.ShloMosaic.TcCoe Idealize.SL.Sem Idealize.ShloMosaic.StableHlo

/-! ## The called functions' buffers

  The masked select and the rectifier are small functions the host calls; their values pass through buffers named with
  their types. Moving contents into such a buffer's own type, or out of it, is the identity: the two types are the same. -/

theorem toBuf_main_cst_2 (h1 h2 h3) (v : FVec Ideal S_ .f32) : (StableHlo.TRef.of (sig := sig) (T := ⟨S_, .f32⟩) main_cst_2 h1 h2 h3).toBuf (Val := Elt Ideal) v = v := rfl
theorem ofBuf_main_cst_2 (h1 h2 h3) (v : FVec Ideal S_ .f32) : (StableHlo.TRef.of (sig := sig) (T := ⟨S_, .f32⟩) main_cst_2 h1 h2 h3).ofBuf (Val := Elt Ideal) v = v := rfl
theorem toBuf_main_call0_v0 (h1 h2 h3) (v : FVec Ideal S_ .f32) : (StableHlo.TRef.of (sig := sig) (T := ⟨S_, .f32⟩) main_call0_v0 h1 h2 h3).toBuf (Val := Elt Ideal) v = v := rfl
theorem ofBuf_main_call0_v0 (h1 h2 h3) (v : FVec Ideal S_ .f32) : (StableHlo.TRef.of (sig := sig) (T := ⟨S_, .f32⟩) main_call0_v0 h1 h2 h3).ofBuf (Val := Elt Ideal) v = v := rfl
theorem toBuf_main_call0_v1 (h1 h2 h3) (v : FVec Ideal S100000 .f32) : (StableHlo.TRef.of (sig := sig) (T := ⟨S100000, .f32⟩) main_call0_v1 h1 h2 h3).toBuf (Val := Elt Ideal) v = v := rfl
theorem ofBuf_main_call0_v1 (h1 h2 h3) (v : FVec Ideal S100000 .f32) : (StableHlo.TRef.of (sig := sig) (T := ⟨S100000, .f32⟩) main_call0_v1 h1 h2 h3).ofBuf (Val := Elt Ideal) v = v := rfl
theorem toBuf_main_v17 (h1 h2 h3) (v : IVec S100000 1) : (StableHlo.TRef.of (sig := sig) (T := ⟨S100000, .i1⟩) main_v17 h1 h2 h3).toBuf (Val := Elt Ideal) v = v := rfl
theorem ofBuf_main_v17 (h1 h2 h3) (v : IVec S100000 1) : (StableHlo.TRef.of (sig := sig) (T := ⟨S100000, .i1⟩) main_v17 h1 h2 h3).ofBuf (Val := Elt Ideal) v = v := rfl
theorem toBuf_main_v18 (h1 h2 h3) (v : FVec Ideal S100000 .f32) : (StableHlo.TRef.of (sig := sig) (T := ⟨S100000, .f32⟩) main_v18 h1 h2 h3).toBuf (Val := Elt Ideal) v = v := rfl
theorem ofBuf_main_v18 (h1 h2 h3) (v : FVec Ideal S100000 .f32) : (StableHlo.TRef.of (sig := sig) (T := ⟨S100000, .f32⟩) main_v18 h1 h2 h3).ofBuf (Val := Elt Ideal) v = v := rfl
theorem toBuf_main_v19 (h1 h2 h3) (v : FVec Ideal S100000 .f32) : (StableHlo.TRef.of (sig := sig) (T := ⟨S100000, .f32⟩) main_v19 h1 h2 h3).toBuf (Val := Elt Ideal) v = v := rfl
theorem ofBuf_main_v19 (h1 h2 h3) (v : FVec Ideal S100000 .f32) : (StableHlo.TRef.of (sig := sig) (T := ⟨S100000, .f32⟩) main_v19 h1 h2 h3).ofBuf (Val := Elt Ideal) v = v := rfl
theorem toBuf_main_call1_cst (h1 h2 h3) (v : FVec Ideal S_ .f32) : (StableHlo.TRef.of (sig := sig) (T := ⟨S_, .f32⟩) main_call1_cst h1 h2 h3).toBuf (Val := Elt Ideal) v = v := rfl
theorem ofBuf_main_call1_cst (h1 h2 h3) (v : FVec Ideal S_ .f32) : (StableHlo.TRef.of (sig := sig) (T := ⟨S_, .f32⟩) main_call1_cst h1 h2 h3).ofBuf (Val := Elt Ideal) v = v := rfl
theorem toBuf_main_call1_v0 (h1 h2 h3) (v : FVec Ideal S100000x128 .f32) : (StableHlo.TRef.of (sig := sig) (T := ⟨S100000x128, .f32⟩) main_call1_v0 h1 h2 h3).toBuf (Val := Elt Ideal) v = v := rfl
theorem ofBuf_main_call1_v0 (h1 h2 h3) (v : FVec Ideal S100000x128 .f32) : (StableHlo.TRef.of (sig := sig) (T := ⟨S100000x128, .f32⟩) main_call1_v0 h1 h2 h3).ofBuf (Val := Elt Ideal) v = v := rfl
theorem toBuf_main_v51 (h1 h2 h3) (v : FVec Ideal S100000x128 .f32) : (StableHlo.TRef.of (sig := sig) (T := ⟨S100000x128, .f32⟩) main_v51 h1 h2 h3).toBuf (Val := Elt Ideal) v = v := rfl
theorem ofBuf_main_v51 (h1 h2 h3) (v : FVec Ideal S100000x128 .f32) : (StableHlo.TRef.of (sig := sig) (T := ⟨S100000x128, .f32⟩) main_v51 h1 h2 h3).ofBuf (Val := Elt Ideal) v = v := rfl
theorem toBuf_main_v52 (h1 h2 h3) (v : FVec Ideal S100000x128 .f32) : (StableHlo.TRef.of (sig := sig) (T := ⟨S100000x128, .f32⟩) main_v52 h1 h2 h3).toBuf (Val := Elt Ideal) v = v := rfl
theorem ofBuf_main_v52 (h1 h2 h3) (v : FVec Ideal S100000x128 .f32) : (StableHlo.TRef.of (sig := sig) (T := ⟨S100000x128, .f32⟩) main_v52 h1 h2 h3).ofBuf (Val := Elt Ideal) v = v := rfl

set_option maxRecDepth 16384 in
set_option maxHeartbeats 8000000 in
/-- What the reference's run leaves in its result buffer, as the forward map of the arguments as launched. -/
theorem result_eq (m : (ℓ : Loc nD τ sig) → Buf (Elt Ideal) ℓ) (c : Dev nD) :
    HandRun.result (F := Ideal) m c
      = forward (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  rw [← hostForward_eq]
  unfold HandRun.result
  read_fold_casts [HandRun.ops, toBuf_main_cst_2, ofBuf_main_cst_2, toBuf_main_call0_v0, ofBuf_main_call0_v0, toBuf_main_call0_v1, ofBuf_main_call0_v1, toBuf_main_v17, ofBuf_main_v17, toBuf_main_v18, ofBuf_main_v18, toBuf_main_v19, ofBuf_main_v19, toBuf_main_call1_cst, ofBuf_main_call1_cst, toBuf_main_call1_v0, ofBuf_main_call1_v0, toBuf_main_v51, ofBuf_main_v51, toBuf_main_v52, ofBuf_main_v52, id_eq]
  rfl

end Cert.ReferenceIdeal.RefRead

end
-- ==== Proof.lean ====
/-
  A two-layer graph convolution over 100000 nodes: the kernel against its reference, over the extended reals.

  Both programs compute the same map `forward` of the nine arguments (Proof/Spec.lean): project the first 20000 rows to
  128 columns and join them with the other 80000; weigh every edge (self loops added) by the inverse square roots of its
  ends' in-degrees; then twice multiply the node rows by a weight matrix, send them along the edges into their targets,
  and add a bias, with the maximum with zero between the two layers.

  The reference does all of it with host operations. The kernel does the sparse part (edge lists, weights, gather, scale,
  scatter-add) with the very same host operations, and the dense part in five pipelined regions that each cut the rows
  into ten blocks: the projection, each layer's product, and each layer's bias. A row of any of those dense maps depends
  on the same row of its input only, so block by block and all at once give the same array (Proof/Region0 … Region4 over
  Proof/LibNodeRows.lean and Proof/Tiles.lean); a change of float format is the identity at the ideal values, and a matrix
  product into the zero accumulator is the host's `dot_general`: the same finite sum, in no particular order. Nothing is
  rearranged beyond that, so no entry needs to be finite and the precondition is never opened.

    * the kernel's run with its result named           — Proof/KernelRun.lean (the run's last boundary read at the result);
    * that boundary's contents as `forward`            — Proof/KernelValue.lean over Proof/Kept.lean;
    * the reference's run as a list of operations       — Proof/RefRun.lean; its result as `forward` — Proof/RefRead.lean.

  The three frames: the two kernels' are the generated ones; the reference's is its run with the result dropped. The
  idealization rewrote no operation, so `preserves` has nothing to say.
-/
import proofs.«143427_j20667382628838_1_alg».proof.Defs
import proofs.«143427_j20667382628838_1_alg».proof.Proof.Gen.Kernel
import proofs.«143427_j20667382628838_1_alg».proof.Proof.Gen.Kernel.Skeleton
import proofs.«143427_j20667382628838_1_alg».proof.Proof.Gen.Kernel.Launch
import proofs.«143427_j20667382628838_1_alg».proof.Proof.Gen.Kernel.Points
import proofs.«143427_j20667382628838_1_alg».proof.Proof.Gen.Kernel.Frame
import proofs.«143427_j20667382628838_1_alg».proof.Proof.Gen.KernelIdeal
import proofs.«143427_j20667382628838_1_alg».proof.Proof.Gen.KernelIdeal.Skeleton
import proofs.«143427_j20667382628838_1_alg».proof.Proof.Gen.KernelIdeal.Launch
import proofs.«143427_j20667382628838_1_alg».proof.Proof.Gen.KernelIdeal.Points
import proofs.«143427_j20667382628838_1_alg».proof.Proof.Gen.KernelIdeal.Frame
import proofs.«143427_j20667382628838_1_alg».proof.Proof.Gen.ReferenceIdeal
import proofs.«143427_j20667382628838_1_alg».proof.Proof.Gen.Pre_finite_inputs
import proofs.«143427_j20667382628838_1_alg».proof.Proof.KernelRun
import proofs.«143427_j20667382628838_1_alg».proof.Proof.KernelValue
import proofs.«143427_j20667382628838_1_alg».proof.Proof.RefRun
import proofs.«143427_j20667382628838_1_alg».proof.Proof.RefRead
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on the arguments both programs end with their result at `forward` of the arguments. -/
theorem algebraic : Cert.algebraic_KernelIdeal_ReferenceIdeal := by
  intro m ρ m' ρ' _ hagree
  refine ⟨fun c => Cert.ReferenceIdeal.Spec.forward (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Forward.value m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.HandRun.run (F := Ideal) m' ρ')
    obtain ⟨h0, h1, h2, h3, h4, h5, h6, h7, h8⟩ := hagree c
    rw [Cert.ReferenceIdeal.RefRead.result_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
